-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S800000x64 : Shape := ⟨2, ![800000, 64]⟩
abbrev S10x64 : Shape := ⟨2, ![10, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S800000x64 : S_.BroadcastsInDim S800000x64 (![] : Fin 0 → Fin S800000x64.rank)
  reducesTo_S800000x64_S_d0_1 : S800000x64.ReducesTo [0, 1] S_
  h_S_ : 0 < S_.numel
  bcast_S_S10x64 : S_.BroadcastsInDim S10x64 (![] : Fin 0 → Fin S10x64.rank)
  reducesTo_S10x64_S_d0_1 : S10x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg10 : FVec F S64x128 .f32) (main_arg11 : FVec F S128 .f32) (main_arg12 : FVec F S128x4 .f32) (main_arg13 : FVec F S4 .f32) (main_v33 : IVec S_ 1) : IVec S_ 1 :=
  let main_v34 : FVec F S64x128 .f32 := Host.absf main_arg10
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x4 .f32 := Host.absf main_arg12
  let main_cst_16 : FVec F S_ .f32 := constant S_ .f32 0x7F800000#32
  let main_v45 : FVec F S128x4 .f32 := broadcastInDim S128x4 ![] bcast_S_S128x4 main_cst_16
  let main_v46 : IVec S128x4 1 := cmpf .olt main_v44 main_v45
  let main_c_17 : IVec S_ 1 := constantI S_ 1 1#1
  let main_v47 : IVec S_ 1 := (fun x v => Host.reduce IntOp.andi x v reducesTo_S128x4_S_d0_1 h_S_) main_v46 main_c_17
  let main_v48 : IVec S_ 1 := andi main_v43 main_v47
  let main_v49 : FVec F S4 .f32 := Host.absf main_arg13
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg7 : FVec F S64x64 .f32) (main_arg8 : FVec F S64 .f32) (main_arg9 : FVec F S64x64 .f32) (main_arg10 : FVec F S64x128 .f32) (main_arg11 : FVec F S128 .f32) (main_arg12 : FVec F S128x4 .f32) (main_arg13 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_arg12 main_arg13 main_v33

def fn {F : FTy → Type} [FloatOps F] (main_arg0 : IVec S50000 32) (main_arg1 : IVec S2x800000 32) (main_arg2 : FVec F S800000x64 .f32) (main_arg3 : IVec S50000 32) (main_arg4 : FVec F S10x64 .f32) (main_arg5 : FVec F S64x64 .f32) (main_arg6 : FVec F S64 .f32) (main_arg7 : FVec F S64x64 .f32) (main_arg8 : FVec F S64 .f32) (main_arg9 : FVec F S64x64 .f32) (main_arg10 : FVec F S64x128 .f32) (main_arg11 : FVec F S128 .f32) (main_arg12 : FVec F S128x4 .f32) (main_arg13 : FVec F S4 .f32) : IVec S_ 1 :=
  let main_v0 : FVec F S800000x64 .f32 := Host.absf main_arg2
  let main_cst : FVec F S_ .f32 := constant S_ .f32 0x7F800000#32
  let main_v1 : FVec F S800000x64 .f32 := broadcastInDim S800000x64 ![] bcast_S_S800000x64 main_cst
  let main_v2 : IVec S800000x64 1 := cmpf .olt main_v0 main_v1
  let main_c : IVec S_ 1 := constantI S_ 1 1#1
  let main_v3 : IVec S_ 1 := (fun x v => Host.reduce IntOp.andi x v reducesTo_S800000x64_S_d0_1 h_S_) main_v2 main_c
  let main_v4 : FVec F S10x64 .f32 := Host.absf main_arg4
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_v13 main_v16
-- ==== Kernel.lean ====
abbrev S50000 : Shape := ⟨1, ![50000]⟩
abbrev S2x800000 : Shape := ⟨2, ![2, 800000]⟩
abbrev S800000x64 : Shape := ⟨2, ![800000, 64]⟩
abbrev S10x64 : Shape := ⟨2, ![10, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x4 : Shape := ⟨2, ![128, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x64 : Shape := ⟨2, ![50000, 64]⟩
abbrev S1x64 : Shape := ⟨2, ![1, 64]⟩
abbrev S6400x64 : Shape := ⟨2, ![6400, 64]⟩
abbrev S800000x1 : Shape := ⟨2, ![800000, 1]⟩
abbrev S1x128 : Shape := ⟨2, ![1, 128]⟩
abbrev S1x4 : Shape := ⟨2, ![1, 4]⟩
abbrev S50000x4 : Shape := ⟨2, ![50000, 4]⟩
abbrev S5000x64 : Shape := ⟨2, ![5000, 64]⟩
abbrev S5000x4 : Shape := ⟨2, ![5000, 4]⟩
abbrev S5000x128 : Shape := ⟨2, ![5000, 128]⟩
abbrev S512x4 : Shape := ⟨2, ![512, 4]⟩

abbrev nBuf : Space → Nat
  | .hbm => 84
  | .vmem => 41
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S800000x64, .f32⟩
  | .hbm, ⟨3, _⟩ => ⟨S50000, .i32⟩
  | .hbm, ⟨4, _⟩ => ⟨S10x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x128, .f32⟩
  | .hbm, ⟨11, _⟩ => ⟨S128, .f32⟩
  | .hbm, ⟨12, _⟩ => ⟨S128x4, .f32⟩
  | .hbm, ⟨13, _⟩ => ⟨S4, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S50000, .i32⟩
  | .hbm, ⟨20, _⟩ => ⟨S50000, .i1⟩
  | .hbm, ⟨21, _⟩ => ⟨S_, .i32⟩
  | .hbm, ⟨22, _⟩ => ⟨S50000, .i32⟩
  | .hbm, ⟨23, _⟩ => ⟨S50000, .i32⟩
  | .hbm, ⟨24, _⟩ => ⟨S50000, .i32⟩
  | .hbm, ⟨25, _⟩ => ⟨S50000x1, .i32⟩
  | .hbm, ⟨26, _⟩ => ⟨S50000x64, .f32⟩
  | .hbm, ⟨27, _⟩ => ⟨S1x64, .f32⟩
  | .hbm, ⟨28, _⟩ => ⟨S800000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S1x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S1x64, .f32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S1x64, .f32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S50000x64, .f32⟩
  | .hbm, ⟨77, _⟩ => ⟨S1x128, .f32⟩
  | .hbm, ⟨78, _⟩ => ⟨S1x4, .f32⟩
  | .hbm, ⟨79, _⟩ => ⟨S50000x4, .f32⟩
  | .hbm, ⟨80, _⟩ => ⟨S_, .f32⟩
  | .hbm, ⟨81, _⟩ => ⟨S512x4, .f32⟩
  | .hbm, ⟨82, _⟩ => ⟨S50000x1, .i32⟩
  | .hbm, ⟨83, _⟩ => ⟨S512x4, .f32⟩
  | .local _ .vmem, ⟨0, _⟩ => ⟨S6400x64, .f32⟩
  | .local _ .vmem, ⟨1, _⟩ => ⟨S6400x64, .f32⟩
  | .local _ .vmem, ⟨2, _⟩ => ⟨S64x64, .f32⟩
  | .local _ .vmem, ⟨3, _⟩ => ⟨S1x64, .f32⟩
  | .local _ .vmem, ⟨4, _⟩ => ⟨S6400x64, .f32⟩
  | .local _ .vmem, ⟨5, _⟩ => ⟨S6400x64, .f32⟩
  | .local _ .vmem, ⟨6, _⟩ => ⟨S6400x64, .f32⟩
  | .local _ .vmem, ⟨7, _⟩ => ⟨S6400x64, .f32⟩
  | .local _ .vmem, ⟨8, _⟩ => ⟨S6400x64, .f32⟩
  | .local _ .vmem, ⟨9, _⟩ => ⟨S6400x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S6400x64, .f32⟩
  | .local _ .vmem, ⟨14, _⟩ => ⟨S6400x64, .f32⟩
  | .local _ .vmem, ⟨15, _⟩ => ⟨S6400x64, .f32⟩
  | .local _ .vmem, ⟨16, _⟩ => ⟨S6400x64, .f32⟩
  | .local _ .vmem, ⟨17, _⟩ => ⟨S6400x64, .f32⟩
  | .local _ .vmem, ⟨18, _⟩ => ⟨S6400x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S6400x64, .f32⟩
  | .local _ .vmem, ⟨23, _⟩ => ⟨S6400x64, .f32⟩
  | .local _ .vmem, ⟨24, _⟩ => ⟨S6400x64, .f32⟩
  | .local _ .vmem, ⟨25, _⟩ => ⟨S6400x64, .f32⟩
  | .local _ .vmem, ⟨26, _⟩ => ⟨S6400x64, .f32⟩
  | .local _ .vmem, ⟨27, _⟩ => ⟨S6400x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S6400x64, .f32⟩
  | .local _ .vmem, ⟨32, _⟩ => ⟨S6400x64, .f32⟩
  | .local _ .vmem, ⟨33, _⟩ => ⟨S5000x64, .f32⟩
  | .local _ .vmem, ⟨34, _⟩ => ⟨S5000x64, .f32⟩
  | .local _ .vmem, ⟨35, _⟩ => ⟨S64x128, .f32⟩
  | .local _ .vmem, ⟨36, _⟩ => ⟨S1x128, .f32⟩
  | .local _ .vmem, ⟨37, _⟩ => ⟨S128x4, .f32⟩
  | .local _ .vmem, ⟨38, _⟩ => ⟨S1x4, .f32⟩
  | .local _ .vmem, ⟨39, _⟩ => ⟨S5000x4, .f32⟩
  | .local _ .vmem, ⟨40, _⟩ => ⟨S5000x4, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6400x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6400x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6400x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S6400x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x4 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x4 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x4 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  bcast_S_S800000 : S_.BroadcastsInDim S800000 (![] : Fin 0 → Fin S800000.rank)
  bcast_S800000_S800000x1_0 : S800000.BroadcastsInDim S800000x1 (![0] : Fin 1 → Fin S800000x1.rank)
  shapeCasts_S6400x64_S6400x64 : S6400x64.ShapeCasts S6400x64
  bcast_S_S50000x64 : S_.BroadcastsInDim S50000x64 (![] : Fin 0 → Fin S50000x64.rank)
  shapeCasts_S128_S1x128 : S128.ShapeCasts S1x128
  shapeCasts_S4_S1x4 : S4.ShapeCasts S1x4
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  bcast_S_S512x4 : S_.BroadcastsInDim S512x4 (![] : Fin 0 → Fin S512x4.rank)
  gather_S10x64_S50000x1_S50000x64_1_0_n_n_0_1_164_wf : GatherDims.WF S10x64 S50000x1 S50000x64 [1] [0] [] [0] [] 1 ![1, 64]
  dot_S6400x64_S64x64_S6400x64_1_0_0_1_n_n_wf : DotDims.WF S6400x64 S64x64 S6400x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x4_S5000x4_1_0_0_1_n_n_wf : DotDims.WF S5000x128 S128x4 S5000x4 [1] [0] [0] [1] [] []
  scatter_S512x4_S50000x1_S50000x4_1_0_0_1_wf : ScatterDims.WF S512x4 S50000x1 S50000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .f32 = 32 ∨ (Rect.block (s := S800000x64) S6400x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x64.size a ≤ S800000x64.size a
  hwx0_3 : ∀ i : grid0.Coords, EltTy.bits .f32 = 32 ∨ (Rect.block (s := S800000x64) S6400x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S800000x64.size a
  hwx1_0 : ∀ i : grid1.Coords, EltTy.bits .f32 = 32 ∨ (Rect.block (s := S800000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x64.size a ≤ S800000x64.size a
  hwx1_1 : ∀ i : grid1.Coords, EltTy.bits .f32 = 32 ∨ (Rect.block (s := S800000x64) S6400x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6400x64.size a ≤ S800000x64.size a
  hwx1_5 : ∀ i : grid1.Coords, EltTy.bits .f32 = 32 ∨ (Rect.block (s := S800000x64) S6400x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S800000x64.size a
  hwx2_0 : ∀ i : grid2.Coords, EltTy.bits .f32 = 32 ∨ (Rect.block (s := S800000x64) S6400x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x64.size a ≤ S800000x64.size a
  hwx2_1 : ∀ i : grid2.Coords, EltTy.bits .f32 = 32 ∨ (Rect.block (s := S800000x64) S6400x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6400x64.size a ≤ S800000x64.size a
  hwx2_5 : ∀ i : grid2.Coords, EltTy.bits .f32 = 32 ∨ (Rect.block (s := S800000x64) S6400x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x64.size a ≤ S800000x64.size a
  hwx3_0 : ∀ i : grid3.Coords, EltTy.bits .f32 = 32 ∨ (Rect.block (s := S800000x64) S6400x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x64.size a ≤ S800000x64.size a
  hwx3_1 : ∀ i : grid3.Coords, EltTy.bits .f32 = 32 ∨ (Rect.block (s := S800000x64) S6400x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S6400x64.size a ≤ S800000x64.size a
  hwx3_5 : ∀ i : grid3.Coords, EltTy.bits .f32 = 32 ∨ (Rect.block (s := S800000x64) S6400x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x4.size a ≤ S128x4.size a
  hwx4_3 : ∀ i : grid4.Coords, EltTy.bits .f32 = 32 ∨ (Rect.block (s := S128x4) S128x4.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x4.size a ≤ S1x4.size a
  hwx4_4 : ∀ i : grid4.Coords, EltTy.bits .f32 = 32 ∨ (Rect.block (s := S1x4) S1x4.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x4.size a ≤ S50000x4.size a
  hwx4_5 : ∀ i : grid4.Coords, EltTy.bits .f32 = 32 ∨ (Rect.block (s := S50000x4) S5000x4.size (cc4_transform_5 i) (hinb4_5 i)).WholeWords (EltTy.packing .f32)

variable [Facts₀]

def gather_S10x64_S50000x1_S50000x64_1_0_n_n_0_1_164 : GatherDims S10x64 S50000x1 S50000x64 where
  offsetDims := [1]
  collapsedSliceDims := [0]
  operandBatchingDims := []
  startIndicesBatchingDims := []
  startIndexMap := [0]
  indexVectorDim := 1
  sliceSizes := ![1, 64]
  wf := gather_S10x64_S50000x1_S50000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def scatter_S512x4_S50000x1_S50000x4_1_0_0_1 : ScatterDims S512x4 S50000x1 S50000x4 where
  updateWindowDims := [1]
  insertedWindowDims := [0]
  scatterDimsToOperandDims := [0]
  indexVectorDim := 1
  wf := scatter_S512x4_S50000x1_S50000x4_1_0_0_1_wf

abbrev win0_0 : Pipeline.Window sig grid0 :=
  Pipeline.Window.ofSpec (Memref.whole main_arg2) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S6400x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S6400x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S6400x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v32) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S6400x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S6400x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S6400x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S6400x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S6400x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v51) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S128x4.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S1x4.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v54) S5000x4.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000 : Shape := ⟨1, ![50000]⟩
abbrev S2x800000 : Shape := ⟨2, ![2, 800000]⟩
abbrev S800000x64 : Shape := ⟨2, ![800000, 64]⟩
abbrev S10x64 : Shape := ⟨2, ![10, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x4 : Shape := ⟨2, ![128, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x64 : Shape := ⟨2, ![50000, 64]⟩
abbrev S1x64 : Shape := ⟨2, ![1, 64]⟩
abbrev S800000x1 : Shape := ⟨2, ![800000, 1]⟩
abbrev S50000x128 : Shape := ⟨2, ![50000, 128]⟩
abbrev S1x128 : Shape := ⟨2, ![1, 128]⟩
abbrev S50000x4 : Shape := ⟨2, ![50000, 4]⟩
abbrev S1x4 : Shape := ⟨2, ![1, 4]⟩
abbrev S512x4 : Shape := ⟨2, ![512, 4]⟩

abbrev nBuf : Space → Nat
  | .hbm => 107
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S800000x64, .f32⟩
  | .hbm, ⟨3, _⟩ => ⟨S50000, .i32⟩
  | .hbm, ⟨4, _⟩ => ⟨S10x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x128, .f32⟩
  | .hbm, ⟨11, _⟩ => ⟨S128, .f32⟩
  | .hbm, ⟨12, _⟩ => ⟨S128x4, .f32⟩
  | .hbm, ⟨13, _⟩ => ⟨S4, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S50000, .i32⟩
  | .hbm, ⟨20, _⟩ => ⟨S50000, .i1⟩
  | .hbm, ⟨21, _⟩ => ⟨S_, .i32⟩
  | .hbm, ⟨22, _⟩ => ⟨S50000, .i32⟩
  | .hbm, ⟨23, _⟩ => ⟨S50000, .i32⟩
  | .hbm, ⟨24, _⟩ => ⟨S50000, .i32⟩
  | .hbm, ⟨25, _⟩ => ⟨S50000x1, .i32⟩
  | .hbm, ⟨26, _⟩ => ⟨S50000x64, .f32⟩
  | .hbm, ⟨27, _⟩ => ⟨S800000x64, .f32⟩
  | .hbm, ⟨28, _⟩ => ⟨S1x64, .f32⟩
  | .hbm, ⟨29, _⟩ => ⟨S800000x64, .f32⟩
  | .hbm, ⟨30, _⟩ => ⟨S800000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S800000x64, .f32⟩
  | .hbm, ⟨41, _⟩ => ⟨S1x64, .f32⟩
  | .hbm, ⟨42, _⟩ => ⟨S800000x64, .f32⟩
  | .hbm, ⟨43, _⟩ => ⟨S800000x64, .f32⟩
  | .hbm, ⟨44, _⟩ => ⟨S800000x64, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S800000x64, .f32⟩
  | .hbm, ⟨62, _⟩ => ⟨S1x64, .f32⟩
  | .hbm, ⟨63, _⟩ => ⟨S800000x64, .f32⟩
  | .hbm, ⟨64, _⟩ => ⟨S800000x64, .f32⟩
  | .hbm, ⟨65, _⟩ => ⟨S800000x64, .f32⟩
  | .hbm, ⟨66, _⟩ => ⟨S800000x64, .f32⟩
  | .hbm, ⟨67, _⟩ => ⟨S800000x64, .f32⟩
  | .hbm, ⟨68, _⟩ => ⟨S_, .f32⟩
  | .hbm, ⟨69, _⟩ => ⟨S50000x64, .f32⟩
  | .hbm, ⟨70, _⟩ => ⟨S800000x1, .i32⟩
  | .hbm, ⟨71, _⟩ => ⟨S50000x64, .f32⟩
  | .hbm, ⟨72, _⟩ => ⟨S50000x64, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x64, .f32⟩
  | .hbm, ⟨82, _⟩ => ⟨S800000x64, .f32⟩
  | .hbm, ⟨83, _⟩ => ⟨S1x64, .f32⟩
  | .hbm, ⟨84, _⟩ => ⟨S800000x64, .f32⟩
  | .hbm, ⟨85, _⟩ => ⟨S800000x64, .f32⟩
  | .hbm, ⟨86, _⟩ => ⟨S800000x64, .f32⟩
  | .hbm, ⟨87, _⟩ => ⟨S800000x64, .f32⟩
  | .hbm, ⟨88, _⟩ => ⟨S800000x64, .f32⟩
  | .hbm, ⟨89, _⟩ => ⟨S_, .f32⟩
  | .hbm, ⟨90, _⟩ => ⟨S50000x64, .f32⟩
  | .hbm, ⟨91, _⟩ => ⟨S800000x1, .i32⟩
  | .hbm, ⟨92, _⟩ => ⟨S50000x64, .f32⟩
  | .hbm, ⟨93, _⟩ => ⟨S50000x64, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x4, .f32⟩
  | .hbm, ⟨100, _⟩ => ⟨S1x4, .f32⟩
  | .hbm, ⟨101, _⟩ => ⟨S50000x4, .f32⟩
  | .hbm, ⟨102, _⟩ => ⟨S50000x4, .f32⟩
  | .hbm, ⟨103, _⟩ => ⟨S_, .f32⟩
  | .hbm, ⟨104, _⟩ => ⟨S512x4, .f32⟩
  | .hbm, ⟨105, _⟩ => ⟨S50000x1, .i32⟩
  | .hbm, ⟨106, _⟩ => ⟨S512x4, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_6 : Ref sig .tc := ⟨.hbm, 73, rfl⟩
abbrev main_v51 : Ref sig .tc := ⟨.hbm, 74, rfl⟩
abbrev main_v52 : Ref sig .tc := ⟨.hbm, 75, rfl⟩
abbrev main_c_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_9 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  bcast_S_S512x4 : S_.BroadcastsInDim S512x4 (![] : Fin 0 → Fin S512x4.rank)
  gather_S10x64_S50000x1_S50000x64_1_0_n_n_0_1_164_wf : GatherDims.WF S10x64 S50000x1 S50000x64 [1] [0] [] [0] [] 1 ![1, 64]
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x4_S50000x4_1_0_0_1_n_n_wf : DotDims.WF S50000x128 S128x4 S50000x4 [1] [0] [0] [1] [] []
  scatter_S512x4_S50000x1_S50000x4_1_0_0_1_wf : ScatterDims.WF S512x4 S50000x1 S50000x4 [1] [0] [0] 1

variable [Facts₀]

def gather_S10x64_S50000x1_S50000x64_1_0_n_n_0_1_164 : GatherDims S10x64 S50000x1 S50000x64 where
  offsetDims := [1]
  collapsedSliceDims := [0]
  operandBatchingDims := []
  startIndicesBatchingDims := []
  startIndexMap := [0]
  indexVectorDim := 1
  sliceSizes := ![1, 64]
  wf := gather_S10x64_S50000x1_S50000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf
def scatter_S512x4_S50000x1_S50000x4_1_0_0_1 : ScatterDims S512x4 S50000x1 S50000x4 where
  updateWindowDims := [1]
  insertedWindowDims := [0]
  scatterDimsToOperandDims := [0]
  indexVectorDim := 1
  wf := scatter_S512x4_S50000x1_S50000x4_1_0_0_1_wf

class Facts : Prop extends Facts₀ where

variable [Facts]
-- ==== Proof.KernelRun.lean ====
/-
  The idealized kernel's run, read at every buffer.  @main is eleven segments: six stretches of host operations
  and, between them, five pipelined kernel regions.  The contents of the TensorCore's buffers at each segment
  boundary are a fold through the program (the generated `W0 … W11`): a host stretch maps the contents by its
  operations, a region replaces its windows' arrays by what its write-backs leave.  Here the library's launch
  theorem for such a segment list is applied with a post that keeps the WHOLE last valuation: after every weakly
  fair execution each unscoped buffer of core `c` holds `W11 m ρ c` at it.  The result buffer and the arguments
  are then read off that one statement.
-/
import proofs.«166146_j4587025072491_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in the final memory every unscoped
    TensorCore buffer of core `c` holds the last boundary's contents `W11 m ρ c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core holds a ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
      -- each segment leaves what the next one takes; the last leaves the buffers at `W11`, the register, and nothing owed
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- at launch a core's unscoped buffers hold the launch memory, which is `W0`
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      -- holding every unscoped buffer at `W11` against the final state reads the final memory there
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same run, read at the result buffer and at the fourteen arguments: the result holds the last boundary's
    contents at `main_v57`, every argument what it was launched with. -/
theorem run_result : θ_run defs (onTc (τ := τ) (main (F := F))) ⟨m, fun _ => 0, ρ⟩ (fun r => ∀ c : Dev nD,
      r.2.mem ((c.tc : Thread nD τ).loc main_v57) = W11 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v57 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c)⟩)
    (run_all m ρ)

end Cert.KernelIdeal.Whole

end
-- ==== Proof.Steps.lean ====
/-
  How the TensorCore's buffer contents move from one segment boundary to the next, one buffer at a time.  A stretch of
  host operations leaves every buffer it does not write as it was; a kernel region changes only its result array (its
  input arrays are staged block by block and never written back).  These are the steps by which a buffer's contents at
  a late boundary are traced back to where the buffer was last written.
-/
import proofs.«166146_j4587025072491_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat)

variable {F : FTy → Type} [FloatOps F]

/-- The buffers host stretch 0 writes. -/
abbrev wr0 : List (Ref sig .tc) := [main_v0, main_v1, main_v2, main_v3, main_c, main_v4, main_v5, main_c_0, main_v6, main_v7, main_v8, main_v9, main_v10, main_v11]

theorem wr0_covers : (hostOps0 : List (HloOp τ sig (Elt F))).Forall fun op => op.writes ⊆ ((wr0).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset, List.map_cons, List.map_nil, List.mem_cons,
    eq_self_iff_true, true_or, or_true, and_self]

/-- Host stretch 0 leaves every buffer it does not write as it found it. -/
theorem keep0 (V : Valuation τ sig (Elt F)) (r : Ref sig .tc) (hr : r ∉ wr0) :
    StableHlo.after hostOps0 V (Proc.devRef .tc r) = V (Proc.devRef .tc r) :=
  StableHlo.after_of_writes_sub hostOps0 V wr0_covers hr

/-- The buffers host stretch 1 writes. -/
abbrev wr1 : List (Ref sig .tc) := [main_c_1, main_v13, main_v14, main_c_2, main_v15, main_v16, main_v17, main_v18, main_v19, main_v20]

theorem wr1_covers : (hostOps1 : List (HloOp τ sig (Elt F))).Forall fun op => op.writes ⊆ ((wr1).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset, List.map_cons, List.map_nil, List.mem_cons,
    eq_self_iff_true, true_or, or_true, and_self]

/-- Host stretch 1 leaves every buffer it does not write as it found it. -/
theorem keep1 (V : Valuation τ sig (Elt F)) (r : Ref sig .tc) (hr : r ∉ wr1) :
    StableHlo.after hostOps1 V (Proc.devRef .tc r) = V (Proc.devRef .tc r) :=
  StableHlo.after_of_writes_sub hostOps1 V wr1_covers hr

/-- The buffers host stretch 2 writes. -/
abbrev wr2 : List (Ref sig .tc) := [main_cst, main_v22, main_v23, main_v24, main_v25, main_c_3, main_v26, main_v27, main_c_4, main_v28, main_v29, main_v30, main_v31, main_v32, main_v33]

theorem wr2_covers : (hostOps2 : List (HloOp τ sig (Elt F))).Forall fun op => op.writes ⊆ ((wr2).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset, List.map_cons, List.map_nil, List.mem_cons,
    eq_self_iff_true, true_or, or_true, and_self]

/-- Host stretch 2 leaves every buffer it does not write as it found it. -/
theorem keep2 (V : Valuation τ sig (Elt F)) (r : Ref sig .tc) (hr : r ∉ wr2) :
    StableHlo.after hostOps2 V (Proc.devRef .tc r) = V (Proc.devRef .tc r) :=
  StableHlo.after_of_writes_sub hostOps2 V wr2_covers hr

/-- The buffers host stretch 3 writes. -/
abbrev wr3 : List (Ref sig .tc) := [main_cst_5, main_v35, main_v36, main_v37, main_v38, main_c_6, main_v39, main_v40, main_c_7, main_v41, main_v42, main_v43, main_v44, main_v45, main_v46]

theorem wr3_covers : (hostOps3 : List (HloOp τ sig (Elt F))).Forall fun op => op.writes ⊆ ((wr3).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset, List.map_cons, List.map_nil, List.mem_cons,
    eq_self_iff_true, true_or, or_true, and_self]

/-- Host stretch 3 leaves every buffer it does not write as it found it. -/
theorem keep3 (V : Valuation τ sig (Elt F)) (r : Ref sig .tc) (hr : r ∉ wr3) :
    StableHlo.after hostOps3 V (Proc.devRef .tc r) = V (Proc.devRef .tc r) :=
  StableHlo.after_of_writes_sub hostOps3 V wr3_covers hr

/-- The buffers host stretch 4 writes. -/
abbrev wr4 : List (Ref sig .tc) := [main_cst_8, main_v48, main_v49, main_v50, main_v51, main_v52, main_v53]

theorem wr4_covers : (hostOps4 : List (HloOp τ sig (Elt F))).Forall fun op => op.writes ⊆ ((wr4).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset, List.map_cons, List.map_nil, List.mem_cons,
    eq_self_iff_true, true_or, or_true, and_self]

/-- Host stretch 4 leaves every buffer it does not write as it found it. -/
theorem keep4 (V : Valuation τ sig (Elt F)) (r : Ref sig .tc) (hr : r ∉ wr4) :
    StableHlo.after hostOps4 V (Proc.devRef .tc r) = V (Proc.devRef .tc r) :=
  StableHlo.after_of_writes_sub hostOps4 V wr4_covers hr

/-- The buffers host stretch 5 writes. -/
abbrev wr5 : List (Ref sig .tc) := [main_cst_9, main_v55, main_v56, main_v57]

theorem wr5_covers : (hostOps5 : List (HloOp τ sig (Elt F))).Forall fun op => op.writes ⊆ ((wr5).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset, List.map_cons, List.map_nil, List.mem_cons,
    eq_self_iff_true, true_or, or_true, and_self]

/-- Host stretch 5 leaves every buffer it does not write as it found it. -/
theorem keep5 (V : Valuation τ sig (Elt F)) (r : Ref sig .tc) (hr : r ∉ wr5) :
    StableHlo.after hostOps5 V (Proc.devRef .tc r) = V (Proc.devRef .tc r) :=
  StableHlo.after_of_writes_sub hostOps5 V wr5_covers hr

variable (m : (ℓ : Loc nD τ sig) → Buf (Elt F) ℓ) (ρ : Dev nD → PrngReg)

/-- Region 0 changes only its result array. -/
theorem pass0 (c : Dev nD) (r : Ref sig .tc) (h : r ≠ main_v12) :
    W2 m ρ c (Proc.devRef .tc r) = W1 m ρ c (Proc.devRef .tc r) := by
  by_cases hw : ∃ w, Pipeline.arrRef spec0 w = r
  · obtain ⟨w, rfl⟩ := hw
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact absurd rfl h
  · exact W2_of_ne m ρ c r (fun w e => hw ⟨w, e⟩)

/-- Region 1 changes only its result array. -/
theorem pass1 (c : Dev nD) (r : Ref sig .tc) (h : r ≠ main_v21) :
    W4 m ρ c (Proc.devRef .tc r) = W3 m ρ c (Proc.devRef .tc r) := by
  by_cases hw : ∃ w, Pipeline.arrRef spec1 w = r
  · obtain ⟨w, rfl⟩ := hw
    fin_cases w
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact (W4_arr m ρ c 3).trans (((dat1 (V3 m ρ) c).arrAt_in 3 rfl _).trans (A_eq1 (V3 m ρ) c 3))
    · exact (W4_arr m ρ c 4).trans (((dat1 (V3 m ρ) c).arrAt_in 4 rfl _).trans (A_eq1 (V3 m ρ) c 4))
    · exact absurd rfl h
  · exact W4_of_ne m ρ c r (fun w e => hw ⟨w, e⟩)

/-- Region 2 changes only its result array. -/
theorem pass2 (c : Dev nD) (r : Ref sig .tc) (h : r ≠ main_v34) :
    W6 m ρ c (Proc.devRef .tc r) = W5 m ρ c (Proc.devRef .tc r) := by
  by_cases hw : ∃ w, Pipeline.arrRef spec2 w = r
  · obtain ⟨w, rfl⟩ := hw
    fin_cases w
    · exact (W6_arr m ρ c 0).trans (((dat2 (V5 m ρ) c).arrAt_in 0 rfl _).trans (A_eq2 (V5 m ρ) c 0))
    · exact (W6_arr m ρ c 1).trans (((dat2 (V5 m ρ) c).arrAt_in 1 rfl _).trans (A_eq2 (V5 m ρ) c 1))
    · exact (W6_arr m ρ c 2).trans (((dat2 (V5 m ρ) c).arrAt_in 2 rfl _).trans (A_eq2 (V5 m ρ) c 2))
    · exact (W6_arr m ρ c 3).trans (((dat2 (V5 m ρ) c).arrAt_in 3 rfl _).trans (A_eq2 (V5 m ρ) c 3))
    · exact (W6_arr m ρ c 4).trans (((dat2 (V5 m ρ) c).arrAt_in 4 rfl _).trans (A_eq2 (V5 m ρ) c 4))
    · exact absurd rfl h
  · exact W6_of_ne m ρ c r (fun w e => hw ⟨w, e⟩)

/-- Region 3 changes only its result array. -/
theorem pass3 (c : Dev nD) (r : Ref sig .tc) (h : r ≠ main_v47) :
    W8 m ρ c (Proc.devRef .tc r) = W7 m ρ c (Proc.devRef .tc r) := by
  by_cases hw : ∃ w, Pipeline.arrRef spec3 w = r
  · obtain ⟨w, rfl⟩ := hw
    fin_cases w
    · exact (W8_arr m ρ c 0).trans (((dat3 (V7 m ρ) c).arrAt_in 0 rfl _).trans (A_eq3 (V7 m ρ) c 0))
    · exact (W8_arr m ρ c 1).trans (((dat3 (V7 m ρ) c).arrAt_in 1 rfl _).trans (A_eq3 (V7 m ρ) c 1))
    · exact (W8_arr m ρ c 2).trans (((dat3 (V7 m ρ) c).arrAt_in 2 rfl _).trans (A_eq3 (V7 m ρ) c 2))
    · exact (W8_arr m ρ c 3).trans (((dat3 (V7 m ρ) c).arrAt_in 3 rfl _).trans (A_eq3 (V7 m ρ) c 3))
    · exact (W8_arr m ρ c 4).trans (((dat3 (V7 m ρ) c).arrAt_in 4 rfl _).trans (A_eq3 (V7 m ρ) c 4))
    · exact absurd rfl h
  · exact W8_of_ne m ρ c r (fun w e => hw ⟨w, e⟩)

/-- Region 4 changes only its result array. -/
theorem pass4 (c : Dev nD) (r : Ref sig .tc) (h : r ≠ main_v54) :
    W10 m ρ c (Proc.devRef .tc r) = W9 m ρ c (Proc.devRef .tc r) := by
  by_cases hw : ∃ w, Pipeline.arrRef spec4 w = r
  · obtain ⟨w, rfl⟩ := hw
    fin_cases w
    · exact (W10_arr m ρ c 0).trans (((dat4 (V9 m ρ) c).arrAt_in 0 rfl _).trans (A_eq4 (V9 m ρ) c 0))
    · exact (W10_arr m ρ c 1).trans (((dat4 (V9 m ρ) c).arrAt_in 1 rfl _).trans (A_eq4 (V9 m ρ) c 1))
    · exact (W10_arr m ρ c 2).trans (((dat4 (V9 m ρ) c).arrAt_in 2 rfl _).trans (A_eq4 (V9 m ρ) c 2))
    · exact (W10_arr m ρ c 3).trans (((dat4 (V9 m ρ) c).arrAt_in 3 rfl _).trans (A_eq4 (V9 m ρ) c 3))
    · exact (W10_arr m ρ c 4).trans (((dat4 (V9 m ρ) c).arrAt_in 4 rfl _).trans (A_eq4 (V9 m ρ) c 4))
    · exact absurd rfl h
  · exact W10_of_ne m ρ c r (fun w e => hw ⟨w, e⟩)

end Cert.KernelIdeal.Whole

end
-- ==== Proof.Layers.lean ====
/-
  The network's three dense layers, as functions of whole matrices over the extended reals.

  * `affine x w bias` — every row of `x` times `w`, one row of biases added to each product row:
      entry (p, q) is  Σ_t x[p, t] · w[t, q]  +  bias[0, q].
  * `edge cg d w1 b w2` — the message of an edge: the affine image of the gathered node row, multiplied entry by
      entry with the edge's own feature row, that product row times `w2`, and the hyperbolic tangent of it:
      entry (p, q) is  tanh ( Σ_s (affine cg w1 b)[p, s] · d[p, s] · w2[s, q] ).
  * `readout c w1 b1 w2 b2` — two affine maps with a hyperbolic tangent between them:
      entry (p, q) is  Σ_s tanh((affine c w1 b1)[p, s]) · w2[s, q]  +  b2[0, q].

  Each entry of a result depends on the first operand (and, for `edge`, on the second) only through row `p`.
  That is what lets a kernel compute the layer block of rows by block of rows: the congruence lemmas below say that
  two evaluations agree as soon as the rows they read agree.
-/
import Idealize.ShloMosaic.PureOps.Ideal
import Idealize.ShloMosaic.Lib.ValueIdx

noncomputable section

namespace Cert.Layers

open Idealize.ShloMosaic Idealize.ShloMosaic.ValueIdx

/-- A matrix of extended reals with `a` rows and `b` columns, indexed as the arrays of the programs are. -/
abbrev Mat (a b : ℕ) : Type := (⟨2, ![a, b]⟩ : Shape).Idx → EReal

variable {a a' k h n : ℕ}

/-- Entry (p, q) of `x · w + bias`, the bias a single row. -/
def affineAt (x : Mat a k) (w : Mat k h) (bias : Mat 1 h) (p : Fin a) (q : Fin h) : EReal :=
  (∑ t : Fin k, x (ix2 p t) * w (ix2 t q)) + bias (ix2 (0 : Fin 1) q)

/-- `x · w + bias`. -/
def affine (x : Mat a k) (w : Mat k h) (bias : Mat 1 h) : Mat a h := fun i => affineAt x w bias (i 0) (i 1)

/-- Entry (p, q) of an edge's message. -/
def edgeAt (cg : Mat a k) (d : Mat a h) (w1 : Mat k h) (b : Mat 1 h) (w2 : Mat h n) (p : Fin a) (q : Fin n) : EReal :=
  Ideal.tanh (∑ s : Fin h, (affineAt cg w1 b p s * d (ix2 p s)) * w2 (ix2 s q))

/-- The messages of all edges. -/
def edge (cg : Mat a k) (d : Mat a h) (w1 : Mat k h) (b : Mat 1 h) (w2 : Mat h n) : Mat a n :=
  fun i => edgeAt cg d w1 b w2 (i 0) (i 1)

/-- Entry (p, q) of the readout. -/
def readoutAt (c : Mat a k) (w1 : Mat k h) (b1 : Mat 1 h) (w2 : Mat h n) (b2 : Mat 1 n) (p : Fin a) (q : Fin n) : EReal :=
  (∑ s : Fin h, Ideal.tanh (affineAt c w1 b1 p s) * w2 (ix2 s q)) + b2 (ix2 (0 : Fin 1) q)

/-- The readout of all nodes. -/
def readout (c : Mat a k) (w1 : Mat k h) (b1 : Mat 1 h) (w2 : Mat h n) (b2 : Mat 1 n) : Mat a n :=
  fun i => readoutAt c w1 b1 w2 b2 (i 0) (i 1)

theorem affine_apply (x : Mat a k) (w : Mat k h) (bias : Mat 1 h) (p : Fin a) (q : Fin h) :
    affine x w bias (ix2 p q) = affineAt x w bias p q := rfl

theorem edge_apply (cg : Mat a k) (d : Mat a h) (w1 : Mat k h) (b : Mat 1 h) (w2 : Mat h n) (p : Fin a) (q : Fin n) :
    edge cg d w1 b w2 (ix2 p q) = edgeAt cg d w1 b w2 p q := rfl

theorem readout_apply (c : Mat a k) (w1 : Mat k h) (b1 : Mat 1 h) (w2 : Mat h n) (b2 : Mat 1 n) (p : Fin a) (q : Fin n) :
    readout c w1 b1 w2 b2 (ix2 p q) = readoutAt c w1 b1 w2 b2 p q := rfl

/-- An entry of the affine layer reads `x` through one row, `w` through one column, the bias at one place. -/
theorem affineAt_congr (x : Mat a k) (x' : Mat a' k) (w w' : Mat k h) (bias bias' : Mat 1 h)
    (p : Fin a) (p' : Fin a') (q q' : Fin h)
    (hx : ∀ t, x (ix2 p t) = x' (ix2 p' t)) (hw : ∀ t, w (ix2 t q) = w' (ix2 t q'))
    (hb : bias (ix2 (0 : Fin 1) q) = bias' (ix2 (0 : Fin 1) q')) :
    affineAt x w bias p q = affineAt x' w' bias' p' q' := by
  unfold affineAt
  rw [hb]
  exact congrArg (· + _) (Finset.sum_congr rfl fun t _ => by rw [hx t, hw t])

/-- An entry of an edge's message reads the gathered rows and the edge features through one row each. -/
theorem edgeAt_congr (cg : Mat a k) (cg' : Mat a' k) (d : Mat a h) (d' : Mat a' h) (w1 w1' : Mat k h) (b b' : Mat 1 h)
    (w2 w2' : Mat h n) (p : Fin a) (p' : Fin a') (q q' : Fin n)
    (hcg : ∀ t, cg (ix2 p t) = cg' (ix2 p' t)) (hd : ∀ s, d (ix2 p s) = d' (ix2 p' s))
    (hw1 : w1 = w1') (hb : b = b') (hw2 : ∀ s, w2 (ix2 s q) = w2' (ix2 s q')) :
    edgeAt cg d w1 b w2 p q = edgeAt cg' d' w1' b' w2' p' q' := by
  subst hw1 hb
  unfold edgeAt
  refine congrArg Ideal.tanh (Finset.sum_congr rfl fun s _ => ?_)
  rw [affineAt_congr cg cg' w1 w1 b b p p' s s hcg (fun _ => rfl) rfl, hd s, hw2 s]

/-- An entry of the readout reads the node features through one row. -/
theorem readoutAt_congr (c : Mat a k) (c' : Mat a' k) (w1 w1' : Mat k h) (b1 b1' : Mat 1 h) (w2 w2' : Mat h n)
    (b2 b2' : Mat 1 n) (p : Fin a) (p' : Fin a') (q q' : Fin n)
    (hc : ∀ t, c (ix2 p t) = c' (ix2 p' t)) (hw1 : w1 = w1') (hb1 : b1 = b1')
    (hw2 : ∀ s, w2 (ix2 s q) = w2' (ix2 s q')) (hb2 : b2 (ix2 (0 : Fin 1) q) = b2' (ix2 (0 : Fin 1) q')) :
    readoutAt c w1 b1 w2 b2 p q = readoutAt c' w1' b1' w2' b2' p' q' := by
  subst hw1 hb1
  unfold readoutAt
  rw [hb2]
  refine congrArg (· + _) (Finset.sum_congr rfl fun s _ => ?_)
  rw [affineAt_congr c c' w1 w1 b1 b1 p p' s s hc (fun _ => rfl) rfl, hw2 s]

end Cert.Layers

end
-- ==== Proof.KernelProducts.lean ====
/-
  The kernels' three matrix products read at an entry.  A `tpu.matmul` of an [A, K] block by a [K, B] block sums,
  at output entry (p, q), over the contraction index of its dimension record; that index has one axis of extent K,
  the left operand is read at (p, k) and the right one at (k, q).  So the sum is the textbook one over `t < K`.
-/
import proofs.«166146_j4587025072491_1_alg».proof.Proof.Gen.KernelIdeal
import proofs.«166146_j4587025072491_1_alg».proof.Proof.Layers
import Idealize.ShloMosaic.PureOps.Ideal.Laws
import Idealize.ShloMosaic.Lib.ValueIdx

noncomputable section

namespace Cert.KernelIdeal.Products

open Cert.KernelIdeal Cert.Layers Idealize.ShloMosaic Idealize.ShloMosaic.ValueIdx

/-! ## A block of 6400 edge rows by a 64 × 64 weight matrix -/

theorem edgeDot_lrow (i : S6400x64.Idx) (q : dot_S6400x64_S64x64_S6400x64_1_0_0_1_n_n.contr.Idx) : (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide), dif_pos (show (0 : Fin S6400x64.rank) ∈ dot_S6400x64_S64x64_S6400x64_1_0_0_1_n_n.lhsNonContracting by decide)]
  rfl
theorem edgeDot_lcol (i : S6400x64.Idx) (q : dot_S6400x64_S64x64_S6400x64_1_0_0_1_n_n.contr.Idx) : (dot_S6400x64_S64x64_S6400x64_1_0_0_1_n_n.lhsIdx i q 1).val = (q ⟨0, by decide⟩).val :=
  dot_S6400x64_S64x64_S6400x64_1_0_0_1_n_n.lhsIdx_val_of_single rfl i q
theorem edgeDot_rrow (i : S6400x64.Idx) (q : dot_S6400x64_S64x64_S6400x64_1_0_0_1_n_n.contr.Idx) : (dot_S6400x64_S64x64_S6400x64_1_0_0_1_n_n.rhsIdx i q 0).val = (q ⟨0, by decide⟩).val :=
  dot_S6400x64_S64x64_S6400x64_1_0_0_1_n_n.rhsIdx_val_of_single rfl i q
theorem edgeDot_rcol (i : S6400x64.Idx) (q : dot_S6400x64_S64x64_S6400x64_1_0_0_1_n_n.contr.Idx) : (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide), dif_pos (show (1 : Fin S64x64.rank) ∈ dot_S6400x64_S64x64_S6400x64_1_0_0_1_n_n.rhsNonContracting by decide)]
  rfl

/-- The product's sum over the contraction index, at entry (p, q), is the sum over `t < 64` of
    row `p` of the left operand against column `q` of the right one. -/
theorem edgeDot_sum (l : Mat 6400 64) (r : Mat 64 64) (p : Fin 6400) (q : Fin 64) :
    (∑ k : dot_S6400x64_S64x64_S6400x64_1_0_0_1_n_n.contr.Idx, l (dot_S6400x64_S64x64_S6400x64_1_0_0_1_n_n.lhsIdx (ix2 p q) k) * r (dot_S6400x64_S64x64_S6400x64_1_0_0_1_n_n.rhsIdx (ix2 p q) k))
      = ∑ t : Fin 64, l (ix2 p t) * r (ix2 t q) := by
  rw [← Equiv.sum_comp (ValueIdx.contrEquiv1 dot_S6400x64_S64x64_S6400x64_1_0_0_1_n_n 64 rfl rfl).symm]
  refine Finset.sum_congr rfl fun t _ => ?_
  have ht := ValueIdx.contrEquiv1_symm_val dot_S6400x64_S64x64_S6400x64_1_0_0_1_n_n 64 rfl rfl t
  have el : dot_S6400x64_S64x64_S6400x64_1_0_0_1_n_n.lhsIdx (ix2 p q) ((ValueIdx.contrEquiv1 dot_S6400x64_S64x64_S6400x64_1_0_0_1_n_n 64 rfl rfl).symm t) = ix2 p t := funext fun a => Fin.ext (by
    match a with
    | ⟨0, _⟩ => exact edgeDot_lrow _ _
    | ⟨1, _⟩ => exact (edgeDot_lcol _ _).trans ht)
  have er : dot_S6400x64_S64x64_S6400x64_1_0_0_1_n_n.rhsIdx (ix2 p q) ((ValueIdx.contrEquiv1 dot_S6400x64_S64x64_S6400x64_1_0_0_1_n_n 64 rfl rfl).symm t) = ix2 t q := funext fun a => Fin.ext (by
    match a with
    | ⟨0, _⟩ => exact (edgeDot_rrow _ _).trans ht
    | ⟨1, _⟩ => exact edgeDot_rcol _ _)
  rw [el, er]

/-! ## A block of 5000 node rows by the 64 × 128 matrix of the readout's first map -/

theorem hiddenDot_lrow (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem hiddenDot_lcol (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem hiddenDot_rrow (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem hiddenDot_rcol (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product's sum over the contraction index, at entry (p, q), is the sum over `t < 64` of
    row `p` of the left operand against column `q` of the right one. -/
theorem hiddenDot_sum (l : Mat 5000 64) (r : Mat 64 128) (p : Fin 5000) (q : Fin 128) :
    (∑ k : dot_S5000x64_S64x128_S5000x128_1_0_0_1_n_n.contr.Idx, l (dot_S5000x64_S64x128_S5000x128_1_0_0_1_n_n.lhsIdx (ix2 p q) k) * r (dot_S5000x64_S64x128_S5000x128_1_0_0_1_n_n.rhsIdx (ix2 p q) k))
      = ∑ t : Fin 64, l (ix2 p t) * r (ix2 t q) := by
  rw [← Equiv.sum_comp (ValueIdx.contrEquiv1 dot_S5000x64_S64x128_S5000x128_1_0_0_1_n_n 64 rfl rfl).symm]
  refine Finset.sum_congr rfl fun t _ => ?_
  have ht := ValueIdx.contrEquiv1_symm_val dot_S5000x64_S64x128_S5000x128_1_0_0_1_n_n 64 rfl rfl t
  have el : dot_S5000x64_S64x128_S5000x128_1_0_0_1_n_n.lhsIdx (ix2 p q) ((ValueIdx.contrEquiv1 dot_S5000x64_S64x128_S5000x128_1_0_0_1_n_n 64 rfl rfl).symm t) = ix2 p t := funext fun a => Fin.ext (by
    match a with
    | ⟨0, _⟩ => exact hiddenDot_lrow _ _
    | ⟨1, _⟩ => exact (hiddenDot_lcol _ _).trans ht)
  have er : dot_S5000x64_S64x128_S5000x128_1_0_0_1_n_n.rhsIdx (ix2 p q) ((ValueIdx.contrEquiv1 dot_S5000x64_S64x128_S5000x128_1_0_0_1_n_n 64 rfl rfl).symm t) = ix2 t q := funext fun a => Fin.ext (by
    match a with
    | ⟨0, _⟩ => exact (hiddenDot_rrow _ _).trans ht
    | ⟨1, _⟩ => exact hiddenDot_rcol _ _)
  rw [el, er]

/-! ## A block of 5000 hidden rows by the 128 × 4 matrix of the readout's second map -/

theorem outDot_lrow (i : S5000x4.Idx) (q : dot_S5000x128_S128x4_S5000x4_1_0_0_1_n_n.contr.Idx) : (dot_S5000x128_S128x4_S5000x4_1_0_0_1_n_n.lhsIdx i q 0).val = (i 0).val := by
  unfold DotDims.lhsIdx
  rw [dif_neg (show ¬(0 : Fin S5000x128.rank) ∈ dot_S5000x128_S128x4_S5000x4_1_0_0_1_n_n.lhsBatch by decide), dif_pos (show (0 : Fin S5000x128.rank) ∈ dot_S5000x128_S128x4_S5000x4_1_0_0_1_n_n.lhsNonContracting by decide)]
  rfl
theorem outDot_lcol (i : S5000x4.Idx) (q : dot_S5000x128_S128x4_S5000x4_1_0_0_1_n_n.contr.Idx) : (dot_S5000x128_S128x4_S5000x4_1_0_0_1_n_n.lhsIdx i q 1).val = (q ⟨0, by decide⟩).val :=
  dot_S5000x128_S128x4_S5000x4_1_0_0_1_n_n.lhsIdx_val_of_single rfl i q
theorem outDot_rrow (i : S5000x4.Idx) (q : dot_S5000x128_S128x4_S5000x4_1_0_0_1_n_n.contr.Idx) : (dot_S5000x128_S128x4_S5000x4_1_0_0_1_n_n.rhsIdx i q 0).val = (q ⟨0, by decide⟩).val :=
  dot_S5000x128_S128x4_S5000x4_1_0_0_1_n_n.rhsIdx_val_of_single rfl i q
theorem outDot_rcol (i : S5000x4.Idx) (q : dot_S5000x128_S128x4_S5000x4_1_0_0_1_n_n.contr.Idx) : (dot_S5000x128_S128x4_S5000x4_1_0_0_1_n_n.rhsIdx i q 1).val = (i 1).val := by
  unfold DotDims.rhsIdx
  rw [dif_neg (show ¬(1 : Fin S128x4.rank) ∈ dot_S5000x128_S128x4_S5000x4_1_0_0_1_n_n.rhsBatch by decide), dif_pos (show (1 : Fin S128x4.rank) ∈ dot_S5000x128_S128x4_S5000x4_1_0_0_1_n_n.rhsNonContracting by decide)]
  rfl

/-- The product's sum over the contraction index, at entry (p, q), is the sum over `t < 128` of
    row `p` of the left operand against column `q` of the right one. -/
theorem outDot_sum (l : Mat 5000 128) (r : Mat 128 4) (p : Fin 5000) (q : Fin 4) :
    (∑ k : dot_S5000x128_S128x4_S5000x4_1_0_0_1_n_n.contr.Idx, l (dot_S5000x128_S128x4_S5000x4_1_0_0_1_n_n.lhsIdx (ix2 p q) k) * r (dot_S5000x128_S128x4_S5000x4_1_0_0_1_n_n.rhsIdx (ix2 p q) k))
      = ∑ t : Fin 128, l (ix2 p t) * r (ix2 t q) := by
  rw [← Equiv.sum_comp (ValueIdx.contrEquiv1 dot_S5000x128_S128x4_S5000x4_1_0_0_1_n_n 128 rfl rfl).symm]
  refine Finset.sum_congr rfl fun t _ => ?_
  have ht := ValueIdx.contrEquiv1_symm_val dot_S5000x128_S128x4_S5000x4_1_0_0_1_n_n 128 rfl rfl t
  have el : dot_S5000x128_S128x4_S5000x4_1_0_0_1_n_n.lhsIdx (ix2 p q) ((ValueIdx.contrEquiv1 dot_S5000x128_S128x4_S5000x4_1_0_0_1_n_n 128 rfl rfl).symm t) = ix2 p t := funext fun a => Fin.ext (by
    match a with
    | ⟨0, _⟩ => exact outDot_lrow _ _
    | ⟨1, _⟩ => exact (outDot_lcol _ _).trans ht)
  have er : dot_S5000x128_S128x4_S5000x4_1_0_0_1_n_n.rhsIdx (ix2 p q) ((ValueIdx.contrEquiv1 dot_S5000x128_S128x4_S5000x4_1_0_0_1_n_n 128 rfl rfl).symm t) = ix2 t q := funext fun a => Fin.ext (by
    match a with
    | ⟨0, _⟩ => exact (outDot_rrow _ _).trans ht
    | ⟨1, _⟩ => exact outDot_rcol _ _)
  rw [el, er]

end Cert.KernelIdeal.Products

end
-- ==== Proof.Bodies.lean ====
/-
  What each kernel body computes from the blocks it loads, at the ideal values.  A change of float format is the
  identity there and a `tpu.matmul` into a zero accumulator is a plain sum of products, so:
  the linear kernel's stored block is the affine layer of its three loaded blocks; the edge kernel's is the edge
  layer of its five; the readout kernel's is the readout layer of its five.  The bias block is a single row,
  broadcast over the rows of the product.
-/
import proofs.«166146_j4587025072491_1_alg».proof.Proof.Gen.KernelIdeal.Skeleton
import proofs.«166146_j4587025072491_1_alg».proof.Proof.Layers
import proofs.«166146_j4587025072491_1_alg».proof.Proof.KernelProducts
import Idealize.ShloMosaic.Lib.ValueLayout
import Idealize.ShloMosaic.Lib.Pipeline.Value

noncomputable section

namespace Cert.KernelIdeal.Bodies

open Cert.KernelIdeal Cert.KernelIdeal.Gen Cert.KernelIdeal.Products Cert.Layers
open Idealize.ShloMosaic Idealize.ShloMosaic.ValueIdx Idealize.ShloMosaic.Pipeline

/-- A `tpu.matmul` of an [6400, 64] block by a [64, 64] block into the zero accumulator, both operands first
    changed to another float format (the identity at the ideal values), read at entry (p, q). -/
theorem edge_matmul {φ ψ : FTy} (l : FVec Ideal S6400x64 .f32) (r : FVec Ideal S64x64 .f32) (h1 : φ.bits < FTy.f32.bits) (h2 : ψ.bits < FTy.f32.bits)
    (p : Fin 6400) (q : Fin 64) :
    matmul dot_S6400x64_S64x64_S6400x64_1_0_0_1_n_n none (truncf φ l h1) (truncf ψ r h2) (constant S6400x64 .f32 0x00000000#32) (ix2 p q)
      = ∑ t : Fin 64, l (ix2 p t) * r (ix2 t q) := by
  show Ideal.ofBits .f32 0x00000000#32
      + ∑ k : dot_S6400x64_S64x64_S6400x64_1_0_0_1_n_n.contr.Idx, l (dot_S6400x64_S64x64_S6400x64_1_0_0_1_n_n.lhsIdx (ix2 p q) k) * r (dot_S6400x64_S64x64_S6400x64_1_0_0_1_n_n.rhsIdx (ix2 p q) k) = _
  rw [Ideal.ofBits_zero_f32, zero_add, edgeDot_sum l r p q]

/-- A `tpu.matmul` of an [5000, 64] block by a [64, 128] block into the zero accumulator, both operands first
    changed to another float format (the identity at the ideal values), read at entry (p, q). -/
theorem hidden_matmul {φ ψ : FTy} (l : FVec Ideal S5000x64 .f32) (r : FVec Ideal S64x128 .f32) (h1 : φ.bits < FTy.f32.bits) (h2 : ψ.bits < FTy.f32.bits)
    (p : Fin 5000) (q : Fin 128) :
    matmul dot_S5000x64_S64x128_S5000x128_1_0_0_1_n_n none (truncf φ l h1) (truncf ψ r h2) (constant S5000x128 .f32 0x00000000#32) (ix2 p q)
      = ∑ t : Fin 64, l (ix2 p t) * r (ix2 t q) := by
  show Ideal.ofBits .f32 0x00000000#32
      + ∑ k : dot_S5000x64_S64x128_S5000x128_1_0_0_1_n_n.contr.Idx, l (dot_S5000x64_S64x128_S5000x128_1_0_0_1_n_n.lhsIdx (ix2 p q) k) * r (dot_S5000x64_S64x128_S5000x128_1_0_0_1_n_n.rhsIdx (ix2 p q) k) = _
  rw [Ideal.ofBits_zero_f32, zero_add, hiddenDot_sum l r p q]

/-- A `tpu.matmul` of an [5000, 128] block by a [128, 4] block into the zero accumulator, both operands first
    changed to another float format (the identity at the ideal values), read at entry (p, q). -/
theorem out_matmul {φ ψ : FTy} (l : FVec Ideal S5000x128 .f32) (r : FVec Ideal S128x4 .f32) (h1 : φ.bits < FTy.f32.bits) (h2 : ψ.bits < FTy.f32.bits)
    (p : Fin 5000) (q : Fin 4) :
    matmul dot_S5000x128_S128x4_S5000x4_1_0_0_1_n_n none (truncf φ l h1) (truncf ψ r h2) (constant S5000x4 .f32 0x00000000#32) (ix2 p q)
      = ∑ t : Fin 128, l (ix2 p t) * r (ix2 t q) := by
  show Ideal.ofBits .f32 0x00000000#32
      + ∑ k : dot_S5000x128_S128x4_S5000x4_1_0_0_1_n_n.contr.Idx, l (dot_S5000x128_S128x4_S5000x4_1_0_0_1_n_n.lhsIdx (ix2 p q) k) * r (dot_S5000x128_S128x4_S5000x4_1_0_0_1_n_n.rhsIdx (ix2 p q) k) = _
  rw [Ideal.ofBits_zero_f32, zero_add, outDot_sum l r p q]

/-- The linear kernel stores `x · w + b` of its loaded blocks. -/
theorem linear_pay (v0 : Vec Ideal S6400x64 .f32) (v2 : Vec Ideal S64x64 .f32) (v5 : Vec Ideal S1x64 .f32) :
    k0_pay1 v0 v2 v5 = affine (a := 6400) (k := 64) (h := 64) v0 v2 v5 := by
  funext j
  obtain ⟨p, q, rfl⟩ : ∃ (p : Fin 6400) (q : Fin 64), j = ix2 p q := ⟨j 0, j 1, eq_ix2 j⟩
  rw [affine_apply]
  unfold k0_pay1 affineAt
  simp only [shapeCast_self]
  show matmul (F := Ideal) _ none (truncf .bf16 v0 _) (truncf .bf16 v2 _) (constant S6400x64 .f32 0x00000000#32) (ix2 p q)
      + broadcastTo S6400x64 v5 broadcasts_S1x64_S6400x64 (ix2 p q) = _
  rw [edge_matmul, broadcastTo_1b_ab_apply]

/-- The edge kernel's arithmetic, the same-shape casts already dropped: the hyperbolic tangent of
    `((cg · w1 + b) ∘ d) · w2`. -/
theorem edge_core (v0 : Vec Ideal S6400x64 .f32) (v3 : Vec Ideal S64x64 .f32) (v6 : Vec Ideal S1x64 .f32)
    (v10 : Vec Ideal S6400x64 .f32) (v14 : Vec Ideal S64x64 .f32)
    (h1 h2 h3 h4 : FTy.bf16.bits < FTy.f32.bits) :
    tanh (F := Ideal) (matmul (F := Ideal) dot_S6400x64_S64x64_S6400x64_1_0_0_1_n_n none
        (truncf .bf16 (mulf (addf (matmul (F := Ideal) dot_S6400x64_S64x64_S6400x64_1_0_0_1_n_n none (truncf .bf16 v0 h1) (truncf .bf16 v3 h2) (constant S6400x64 .f32 0x00000000#32))
          (broadcastTo S6400x64 v6 broadcasts_S1x64_S6400x64)) v10) h3)
        (truncf .bf16 v14 h4) (constant S6400x64 .f32 0x00000000#32))
      = edge (a := 6400) (k := 64) (h := 64) (n := 64) v0 v10 v3 v6 v14 := by
  funext j
  obtain ⟨p, q, rfl⟩ : ∃ (p : Fin 6400) (q : Fin 64), j = ix2 p q := ⟨j 0, j 1, eq_ix2 j⟩
  rw [edge_apply]
  unfold edgeAt affineAt
  show Ideal.tanh (matmul (F := Ideal) _ none (truncf .bf16 _ h3) (truncf .bf16 v14 h4) (constant S6400x64 .f32 0x00000000#32) (ix2 p q)) = _
  rw [edge_matmul]
  refine congrArg Ideal.tanh (Finset.sum_congr rfl fun s _ => ?_)
  show (matmul (F := Ideal) _ none (truncf .bf16 v0 h1) (truncf .bf16 v3 h2) (constant S6400x64 .f32 0x00000000#32) (ix2 p s)
      + broadcastTo S6400x64 v6 broadcasts_S1x64_S6400x64 (ix2 p s)) * v10 (ix2 p s) * v14 (ix2 s q) = _
  rw [edge_matmul, broadcastTo_1b_ab_apply]

/-- The edge kernel of the first round stores the edge layer of its loaded blocks. -/
theorem edge_pay1 (v0 : Vec Ideal S6400x64 .f32) (v3 : Vec Ideal S64x64 .f32) (v6 : Vec Ideal S1x64 .f32)
    (v10 : Vec Ideal S6400x64 .f32) (v14 : Vec Ideal S64x64 .f32) :
    k1_pay1 v0 v3 v6 v10 v14 = edge (a := 6400) (k := 64) (h := 64) (n := 64) v0 v10 v3 v6 v14 := by
  unfold k1_pay1
  simp only [shapeCast_self]
  exact edge_core v0 v3 v6 v10 v14 _ _ _ _

/-- The edge kernel of the second round stores the edge layer of its loaded blocks. -/
theorem edge_pay2 (v0 : Vec Ideal S6400x64 .f32) (v3 : Vec Ideal S64x64 .f32) (v6 : Vec Ideal S1x64 .f32)
    (v10 : Vec Ideal S6400x64 .f32) (v14 : Vec Ideal S64x64 .f32) :
    k2_pay1 v0 v3 v6 v10 v14 = edge (a := 6400) (k := 64) (h := 64) (n := 64) v0 v10 v3 v6 v14 := by
  unfold k2_pay1
  simp only [shapeCast_self]
  exact edge_core v0 v3 v6 v10 v14 _ _ _ _

/-- The edge kernel of the third round stores the edge layer of its loaded blocks. -/
theorem edge_pay3 (v0 : Vec Ideal S6400x64 .f32) (v3 : Vec Ideal S64x64 .f32) (v6 : Vec Ideal S1x64 .f32)
    (v10 : Vec Ideal S6400x64 .f32) (v14 : Vec Ideal S64x64 .f32) :
    k3_pay1 v0 v3 v6 v10 v14 = edge (a := 6400) (k := 64) (h := 64) (n := 64) v0 v10 v3 v6 v14 := by
  unfold k3_pay1
  simp only [shapeCast_self]
  exact edge_core v0 v3 v6 v10 v14 _ _ _ _

/-- The readout kernel stores `tanh(c · w1 + b1) · w2 + b2` of its loaded blocks. -/
theorem readout_pay (v0 : Vec Ideal S5000x64 .f32) (v3 : Vec Ideal S64x128 .f32) (v6 : Vec Ideal S1x128 .f32)
    (v12 : Vec Ideal S128x4 .f32) (v15 : Vec Ideal S1x4 .f32) :
    k4_pay1 v0 v3 v6 v12 v15 = readout (a := 5000) (k := 64) (h := 128) (n := 4) v0 v3 v6 v12 v15 := by
  funext j
  obtain ⟨p, q, rfl⟩ : ∃ (p : Fin 5000) (q : Fin 4), j = ix2 p q := ⟨j 0, j 1, eq_ix2 j⟩
  rw [readout_apply]
  unfold k4_pay1 readoutAt affineAt
  simp only [shapeCast_self]
  show matmul (F := Ideal) _ none (truncf .bf16 _ _) (truncf .bf16 v12 _) (constant S5000x4 .f32 0x00000000#32) (ix2 p q)
      + broadcastTo S5000x4 v15 broadcasts_S1x4_S5000x4 (ix2 p q) = _
  rw [out_matmul, broadcastTo_1b_ab_apply]
  refine congrArg (· + _) (Finset.sum_congr rfl fun s _ => ?_)
  show Ideal.tanh (matmul (F := Ideal) _ none (truncf .bf16 v0 _) (truncf .bf16 v3 _) (constant S5000x128 .f32 0x00000000#32) (ix2 p s)
      + broadcastTo S5000x128 v6 broadcasts_S1x128_S5000x128 (ix2 p s)) * v12 (ix2 s q) = _
  rw [hidden_matmul, broadcastTo_1b_ab_apply]

end Cert.KernelIdeal.Bodies

end
-- ==== Proof.Region0.lean ====
/-
  The first kernel region, read as a function of whole arrays.  Its grid has 125 points; point `t` loads rows
  6400·t … 6400·t + 6399 of the edge attributes, the whole 64 × 64 weight matrix and the bias row, and writes the
  affine layer of these back to the same rows of its result.  The blocks written tile the result, so after the
  region the result array is the affine layer of the three arrays as the region found them — whatever those are.
-/
import proofs.«166146_j4587025072491_1_alg».proof.Proof.Gen.KernelIdeal.Frame
import proofs.«166146_j4587025072491_1_alg».proof.Proof.Bodies
import Idealize.ShloMosaic.Lib.Pipeline.Value

set_option maxRecDepth 16384

noncomputable section

namespace Cert.KernelIdeal.Region0

open Cert.KernelIdeal Cert.KernelIdeal.Gen Cert.KernelIdeal.Bodies Cert.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point `t`: the row-blocked windows at block row `t`, the weight and the
    bias at their one block. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the affine layer of the arrays at the region's entry. -/
theorem flushed (c : Dev nD) (t : Fin cfg0.N) :
    (dat0 V c).flushed 3 t = ((cfg0.win 3).blk t).view.read (Elt Ideal)
      (affine (a := 800000) (k := 64) (h := 64) (V c main_arg2) (V c main_arg7) (V c main_v11)) := by
  show (cfg0.win 3).cut (grid0.coords t) ((dat0 V c).after 3 t) = _
  rw [after0_3]
  unfold out0_3
  rw [View.canon_unit_zero origin]
  simp only [View.ld_unit_zero (S := S6400x64) origin, View.ld_unit_zero (S := S64x64) origin, View.ld_unit_zero (S := S1x64) origin]
  rw [linear_pay]
  obtain ⟨e00, e01, e10, e11, e20, e21, e30, e31⟩ := blocks_at t
  funext j
  show affineAt (a := 6400) (k := 64) (h := 64) (iblk0 V c 0 t) (iblk0 V c 1 t) (iblk0 V c 2 t) (j 0) (j 1)
    = affineAt (a := 800000) (k := 64) (h := 64) (V c main_arg2) (V c main_arg7) (V c main_v11)
        ((((cfg0.win 3).blk t).view.emb j) 0) ((((cfg0.win 3).blk t).view.emb j) 1)
  refine affineAt_congr _ _ _ _ _ _ _ _ _ _ (fun s => ?_) (fun s => ?_) ?_
  · show V c main_arg2 (((cfg0.win 0).blk t).view.emb (ix2 (j 0) s)) = V c main_arg2 (ix2 ((((cfg0.win 3).blk t).view.emb j) 0) s)
    refine congrArg (V c main_arg2) (funext fun a => Fin.ext ?_)
    match a with
    | ⟨0, _⟩ => show win0_0.index t (0 : Fin 2) * 6400 + 1 * (j 0).val = win0_3.index t (0 : Fin 2) * 6400 + 1 * (j 0).val; rw [e00, e30]
    | ⟨1, _⟩ => show win0_0.index t (1 : Fin 2) * 64 + 1 * s.val = s.val; rw [e01]; omega
  · show V c main_arg7 (((cfg0.win 1).blk t).view.emb (ix2 s (j 1))) = V c main_arg7 (ix2 s ((((cfg0.win 3).blk t).view.emb j) 1))
    refine congrArg (V c main_arg7) (funext fun a => Fin.ext ?_)
    match a with
    | ⟨0, _⟩ => show win0_1.index t (0 : Fin 2) * 64 + 1 * s.val = s.val; rw [e10]; omega
    | ⟨1, _⟩ => show win0_1.index t (1 : Fin 2) * 64 + 1 * (j 1).val = win0_3.index t (1 : Fin 2) * 64 + 1 * (j 1).val; rw [e11, e31]
  · show V c main_v11 (((cfg0.win 2).blk t).view.emb (ix2 (0 : Fin 1) (j 1))) = V c main_v11 (ix2 (0 : Fin 1) ((((cfg0.win 3).blk t).view.emb j) 1))
    refine congrArg (V c main_v11) (funext fun a => Fin.ext ?_)
    match a with
    | ⟨0, _⟩ => show win0_2.index t (0 : Fin 2) * 1 + 1 * 0 = 0; rw [e20]
    | ⟨1, _⟩ => show win0_2.index t (1 : Fin 2) * 64 + 1 * (j 1).val = win0_3.index t (1 : Fin 2) * 64 + 1 * (j 1).val; rw [e21, e31]

/-- An index of the result is in point `t`'s block iff each coordinate is in the block's range on its axis. -/
theorem mem_block (t : Fin cfg0.N) (i : S800000x64.Idx) :
    i ∈ ((cfg0.win 3).blk t).view.set ↔ ∀ a : Fin 2, win0_3.index t a * S6400x64.size a ≤ (i a).val ∧ (i a).val < win0_3.index t a * S6400x64.size a + S6400x64.size a := by
  show i ∈ ((View.whole main_v12).slice (win0_3.rect t)).set ↔ _
  rw [View.set_slice_whole, Rect.mem_set_unit]
  exact Iff.rfl

/-- Row `r` of the result is written by point `r / 6400`. -/
theorem covered (i : S800000x64.Idx) : ∃ t : Fin cfg0.N, (cfg0.win 3).flush t = true ∧ i ∈ ((cfg0.win 3).blk t).view.set := by
  have hi0 : (i 0).val < 800000 := (i 0).isLt
  have hi1 : (i 1).val < 64 := (i 1).isLt
  obtain ⟨t, ht⟩ : ∃ t : Fin cfg0.N, t.val = (i 0).val / 6400 :=
    ⟨⟨(i 0).val / 6400, by rw [show cfg0.N = 125 from N_0]; omega⟩, rfl⟩
  obtain ⟨e00, e01, e10, e11, e20, e21, e30, e31⟩ := blocks_at t
  refine ⟨t, flush0_3 t, ?_⟩
  rw [mem_block]
  intro a
  match a with
  | ⟨0, _⟩ => show win0_3.index t (0 : Fin 2) * 6400 ≤ (i 0).val ∧ (i 0).val < win0_3.index t (0 : Fin 2) * 6400 + 6400; rw [e30, ht]; omega
  | ⟨1, _⟩ => show win0_3.index t (1 : Fin 2) * 64 ≤ (i 1).val ∧ (i 1).val < win0_3.index t (1 : Fin 2) * 64 + 64; rw [e31]; omega

/-- After the region its result array is the affine layer of the three arrays it was entered with. -/
theorem array (c : Dev nD) : (dat0 V c).arrAt 3 cfg0.N
    = affine (a := 800000) (k := 64) (h := 64) (V c main_arg2) (V c main_arg7) (V c main_v11) :=
  (dat0 V c).arrAt_eq_of_cover 3 _ (fun t _ => flushed V c t) covered

end Cert.KernelIdeal.Region0

end
-- ==== Proof.Region1.lean ====
/-
  The first edge-message region, read as a function of whole arrays.  Its grid has 125 points; point `t` loads rows
  6400·t … 6400·t + 6399 of the gathered node features and of the edge features, both 64 × 64 weight matrices and
  the bias row, and writes the edge layer of these back to the same rows of its result.  The blocks written tile
  the result, so after the region the result array is the edge layer of the five arrays as the region found them.
-/
import proofs.«166146_j4587025072491_1_alg».proof.Proof.Gen.KernelIdeal.Frame
import proofs.«166146_j4587025072491_1_alg».proof.Proof.Bodies
import Idealize.ShloMosaic.Lib.Pipeline.Value

set_option maxRecDepth 16384

noncomputable section

namespace Cert.KernelIdeal.Region1

open Cert.KernelIdeal Cert.KernelIdeal.Gen Cert.KernelIdeal.Bodies Cert.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point `t`: the three row-blocked windows at block row `t`, the two
    weight matrices and the bias at their one block. -/
theorem blocks_at : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the edge layer of the arrays at the region's entry. -/
theorem flushed (c : Dev nD) (t : Fin cfg1.N) :
    (dat1 V c).flushed 5 t = ((cfg1.win 5).blk t).view.read (Elt Ideal)
      (edge (a := 800000) (k := 64) (h := 64) (n := 64) (V c main_v19) (V c main_v12) (V c main_arg5) (V c main_v20) (V c main_arg9)) := by
  show (cfg1.win 5).cut (grid1.coords t) ((dat1 V c).after 5 t) = _
  rw [after1_5]
  unfold out1_5
  rw [View.canon_unit_zero origin]
  simp only [View.ld_unit_zero (S := S6400x64) origin, View.ld_unit_zero (S := S64x64) origin, View.ld_unit_zero (S := S1x64) origin]
  rw [edge_pay1]
  obtain ⟨e00, e01, e10, e11, e20, e21, e30, e31, e40, e41, e50, e51⟩ := blocks_at t
  funext j
  show edgeAt (a := 6400) (k := 64) (h := 64) (n := 64) (iblk1 V c 0 t) (iblk1 V c 1 t) (iblk1 V c 2 t) (iblk1 V c 3 t) (iblk1 V c 4 t) (j 0) (j 1)
    = edgeAt (a := 800000) (k := 64) (h := 64) (n := 64) (V c main_v19) (V c main_v12) (V c main_arg5) (V c main_v20) (V c main_arg9)
        ((((cfg1.win 5).blk t).view.emb j) 0) ((((cfg1.win 5).blk t).view.emb j) 1)
  refine edgeAt_congr _ _ _ _ _ _ _ _ _ _ _ _ _ _ (fun s => ?_) (fun s => ?_) (funext fun y => ?_) (funext fun y => ?_) (fun s => ?_)
  · show V c main_v19 (((cfg1.win 0).blk t).view.emb (ix2 (j 0) s)) = V c main_v19 (ix2 ((((cfg1.win 5).blk t).view.emb j) 0) s)
    refine congrArg (V c main_v19) (funext fun a => Fin.ext ?_)
    match a with
    | ⟨0, _⟩ => show win1_0.index t (0 : Fin 2) * 6400 + 1 * (j 0).val = win1_5.index t (0 : Fin 2) * 6400 + 1 * (j 0).val; rw [e00, e50]
    | ⟨1, _⟩ => show win1_0.index t (1 : Fin 2) * 64 + 1 * s.val = s.val; rw [e01]; omega
  · show V c main_v12 (((cfg1.win 1).blk t).view.emb (ix2 (j 0) s)) = V c main_v12 (ix2 ((((cfg1.win 5).blk t).view.emb j) 0) s)
    refine congrArg (V c main_v12) (funext fun a => Fin.ext ?_)
    match a with
    | ⟨0, _⟩ => show win1_1.index t (0 : Fin 2) * 6400 + 1 * (j 0).val = win1_5.index t (0 : Fin 2) * 6400 + 1 * (j 0).val; rw [e10, e50]
    | ⟨1, _⟩ => show win1_1.index t (1 : Fin 2) * 64 + 1 * s.val = s.val; rw [e11]; omega
  · show V c main_arg5 (((cfg1.win 2).blk t).view.emb y) = V c main_arg5 y
    refine congrArg (V c main_arg5) (funext fun a => Fin.ext ?_)
    match a with
    | ⟨0, _⟩ => show win1_2.index t (0 : Fin 2) * 64 + 1 * (y 0).val = (y 0).val; rw [e20]; omega
    | ⟨1, _⟩ => show win1_2.index t (1 : Fin 2) * 64 + 1 * (y 1).val = (y 1).val; rw [e21]; omega
  · show V c main_v20 (((cfg1.win 3).blk t).view.emb y) = V c main_v20 y
    refine congrArg (V c main_v20) (funext fun a => Fin.ext ?_)
    match a with
    | ⟨0, _⟩ => show win1_3.index t (0 : Fin 2) * 1 + 1 * (y 0).val = (y 0).val; rw [e30]; omega
    | ⟨1, _⟩ => show win1_3.index t (1 : Fin 2) * 64 + 1 * (y 1).val = (y 1).val; rw [e31]; omega
  · show V c main_arg9 (((cfg1.win 4).blk t).view.emb (ix2 s (j 1))) = V c main_arg9 (ix2 s ((((cfg1.win 5).blk t).view.emb j) 1))
    refine congrArg (V c main_arg9) (funext fun a => Fin.ext ?_)
    match a with
    | ⟨0, _⟩ => show win1_4.index t (0 : Fin 2) * 64 + 1 * s.val = s.val; rw [e40]; omega
    | ⟨1, _⟩ => show win1_4.index t (1 : Fin 2) * 64 + 1 * (j 1).val = win1_5.index t (1 : Fin 2) * 64 + 1 * (j 1).val; rw [e41, e51]

/-- An index of the result is in point `t`'s block iff each coordinate is in the block's range on its axis. -/
theorem mem_block (t : Fin cfg1.N) (i : S800000x64.Idx) :
    i ∈ ((cfg1.win 5).blk t).view.set ↔ ∀ a : Fin 2, win1_5.index t a * S6400x64.size a ≤ (i a).val ∧ (i a).val < win1_5.index t a * S6400x64.size a + S6400x64.size a := by
  show i ∈ ((View.whole main_v21).slice (win1_5.rect t)).set ↔ _
  rw [View.set_slice_whole, Rect.mem_set_unit]
  exact Iff.rfl

/-- Row `r` of the result is written by point `r / 6400`. -/
theorem covered (i : S800000x64.Idx) : ∃ t : Fin cfg1.N, (cfg1.win 5).flush t = true ∧ i ∈ ((cfg1.win 5).blk t).view.set := by
  have hi0 : (i 0).val < 800000 := (i 0).isLt
  have hi1 : (i 1).val < 64 := (i 1).isLt
  obtain ⟨t, ht⟩ : ∃ t : Fin cfg1.N, t.val = (i 0).val / 6400 :=
    ⟨⟨(i 0).val / 6400, by rw [show cfg1.N = 125 from N_1]; omega⟩, rfl⟩
  obtain ⟨e00, e01, e10, e11, e20, e21, e30, e31, e40, e41, e50, e51⟩ := blocks_at t
  refine ⟨t, flush1_5 t, ?_⟩
  rw [mem_block]
  intro a
  match a with
  | ⟨0, _⟩ => show win1_5.index t (0 : Fin 2) * 6400 ≤ (i 0).val ∧ (i 0).val < win1_5.index t (0 : Fin 2) * 6400 + 6400; rw [e50, ht]; omega
  | ⟨1, _⟩ => show win1_5.index t (1 : Fin 2) * 64 ≤ (i 1).val ∧ (i 1).val < win1_5.index t (1 : Fin 2) * 64 + 64; rw [e51]; omega

/-- After the region its result array is the edge layer of the five arrays it was entered with. -/
theorem array (c : Dev nD) : (dat1 V c).arrAt 5 cfg1.N
    = edge (a := 800000) (k := 64) (h := 64) (n := 64) (V c main_v19) (V c main_v12) (V c main_arg5) (V c main_v20) (V c main_arg9) :=
  (dat1 V c).arrAt_eq_of_cover 5 _ (fun t _ => flushed V c t) covered

end Cert.KernelIdeal.Region1

end
-- ==== Proof.Region2.lean ====
/-
  The second edge-message region, read as a function of whole arrays.  Its grid has 125 points; point `t` loads rows
  6400·t … 6400·t + 6399 of the gathered node features and of the edge features, both 64 × 64 weight matrices and
  the bias row, and writes the edge layer of these back to the same rows of its result.  The blocks written tile
  the result, so after the region the result array is the edge layer of the five arrays as the region found them.
-/
import proofs.«166146_j4587025072491_1_alg».proof.Proof.Gen.KernelIdeal.Frame
import proofs.«166146_j4587025072491_1_alg».proof.Proof.Bodies
import Idealize.ShloMosaic.Lib.Pipeline.Value

set_option maxRecDepth 16384

noncomputable section

namespace Cert.KernelIdeal.Region2

open Cert.KernelIdeal Cert.KernelIdeal.Gen Cert.KernelIdeal.Bodies Cert.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point `t`: the three row-blocked windows at block row `t`, the two
    weight matrices and the bias at their one block. -/
theorem blocks_at : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the edge layer of the arrays at the region's entry. -/
theorem flushed (c : Dev nD) (t : Fin cfg2.N) :
    (dat2 V c).flushed 5 t = ((cfg2.win 5).blk t).view.read (Elt Ideal)
      (edge (a := 800000) (k := 64) (h := 64) (n := 64) (V c main_v32) (V c main_v12) (V c main_arg5) (V c main_v33) (V c main_arg9)) := by
  show (cfg2.win 5).cut (grid2.coords t) ((dat2 V c).after 5 t) = _
  rw [after2_5]
  unfold out2_5
  rw [View.canon_unit_zero origin]
  simp only [View.ld_unit_zero (S := S6400x64) origin, View.ld_unit_zero (S := S64x64) origin, View.ld_unit_zero (S := S1x64) origin]
  rw [edge_pay2]
  obtain ⟨e00, e01, e10, e11, e20, e21, e30, e31, e40, e41, e50, e51⟩ := blocks_at t
  funext j
  show edgeAt (a := 6400) (k := 64) (h := 64) (n := 64) (iblk2 V c 0 t) (iblk2 V c 1 t) (iblk2 V c 2 t) (iblk2 V c 3 t) (iblk2 V c 4 t) (j 0) (j 1)
    = edgeAt (a := 800000) (k := 64) (h := 64) (n := 64) (V c main_v32) (V c main_v12) (V c main_arg5) (V c main_v33) (V c main_arg9)
        ((((cfg2.win 5).blk t).view.emb j) 0) ((((cfg2.win 5).blk t).view.emb j) 1)
  refine edgeAt_congr _ _ _ _ _ _ _ _ _ _ _ _ _ _ (fun s => ?_) (fun s => ?_) (funext fun y => ?_) (funext fun y => ?_) (fun s => ?_)
  · show V c main_v32 (((cfg2.win 0).blk t).view.emb (ix2 (j 0) s)) = V c main_v32 (ix2 ((((cfg2.win 5).blk t).view.emb j) 0) s)
    refine congrArg (V c main_v32) (funext fun a => Fin.ext ?_)
    match a with
    | ⟨0, _⟩ => show win2_0.index t (0 : Fin 2) * 6400 + 1 * (j 0).val = win2_5.index t (0 : Fin 2) * 6400 + 1 * (j 0).val; rw [e00, e50]
    | ⟨1, _⟩ => show win2_0.index t (1 : Fin 2) * 64 + 1 * s.val = s.val; rw [e01]; omega
  · show V c main_v12 (((cfg2.win 1).blk t).view.emb (ix2 (j 0) s)) = V c main_v12 (ix2 ((((cfg2.win 5).blk t).view.emb j) 0) s)
    refine congrArg (V c main_v12) (funext fun a => Fin.ext ?_)
    match a with
    | ⟨0, _⟩ => show win2_1.index t (0 : Fin 2) * 6400 + 1 * (j 0).val = win2_5.index t (0 : Fin 2) * 6400 + 1 * (j 0).val; rw [e10, e50]
    | ⟨1, _⟩ => show win2_1.index t (1 : Fin 2) * 64 + 1 * s.val = s.val; rw [e11]; omega
  · show V c main_arg5 (((cfg2.win 2).blk t).view.emb y) = V c main_arg5 y
    refine congrArg (V c main_arg5) (funext fun a => Fin.ext ?_)
    match a with
    | ⟨0, _⟩ => show win2_2.index t (0 : Fin 2) * 64 + 1 * (y 0).val = (y 0).val; rw [e20]; omega
    | ⟨1, _⟩ => show win2_2.index t (1 : Fin 2) * 64 + 1 * (y 1).val = (y 1).val; rw [e21]; omega
  · show V c main_v33 (((cfg2.win 3).blk t).view.emb y) = V c main_v33 y
    refine congrArg (V c main_v33) (funext fun a => Fin.ext ?_)
    match a with
    | ⟨0, _⟩ => show win2_3.index t (0 : Fin 2) * 1 + 1 * (y 0).val = (y 0).val; rw [e30]; omega
    | ⟨1, _⟩ => show win2_3.index t (1 : Fin 2) * 64 + 1 * (y 1).val = (y 1).val; rw [e31]; omega
  · show V c main_arg9 (((cfg2.win 4).blk t).view.emb (ix2 s (j 1))) = V c main_arg9 (ix2 s ((((cfg2.win 5).blk t).view.emb j) 1))
    refine congrArg (V c main_arg9) (funext fun a => Fin.ext ?_)
    match a with
    | ⟨0, _⟩ => show win2_4.index t (0 : Fin 2) * 64 + 1 * s.val = s.val; rw [e40]; omega
    | ⟨1, _⟩ => show win2_4.index t (1 : Fin 2) * 64 + 1 * (j 1).val = win2_5.index t (1 : Fin 2) * 64 + 1 * (j 1).val; rw [e41, e51]

/-- An index of the result is in point `t`'s block iff each coordinate is in the block's range on its axis. -/
theorem mem_block (t : Fin cfg2.N) (i : S800000x64.Idx) :
    i ∈ ((cfg2.win 5).blk t).view.set ↔ ∀ a : Fin 2, win2_5.index t a * S6400x64.size a ≤ (i a).val ∧ (i a).val < win2_5.index t a * S6400x64.size a + S6400x64.size a := by
  show i ∈ ((View.whole main_v34).slice (win2_5.rect t)).set ↔ _
  rw [View.set_slice_whole, Rect.mem_set_unit]
  exact Iff.rfl

/-- Row `r` of the result is written by point `r / 6400`. -/
theorem covered (i : S800000x64.Idx) : ∃ t : Fin cfg2.N, (cfg2.win 5).flush t = true ∧ i ∈ ((cfg2.win 5).blk t).view.set := by
  have hi0 : (i 0).val < 800000 := (i 0).isLt
  have hi1 : (i 1).val < 64 := (i 1).isLt
  obtain ⟨t, ht⟩ : ∃ t : Fin cfg2.N, t.val = (i 0).val / 6400 :=
    ⟨⟨(i 0).val / 6400, by rw [show cfg2.N = 125 from N_2]; omega⟩, rfl⟩
  obtain ⟨e00, e01, e10, e11, e20, e21, e30, e31, e40, e41, e50, e51⟩ := blocks_at t
  refine ⟨t, flush2_5 t, ?_⟩
  rw [mem_block]
  intro a
  match a with
  | ⟨0, _⟩ => show win2_5.index t (0 : Fin 2) * 6400 ≤ (i 0).val ∧ (i 0).val < win2_5.index t (0 : Fin 2) * 6400 + 6400; rw [e50, ht]; omega
  | ⟨1, _⟩ => show win2_5.index t (1 : Fin 2) * 64 ≤ (i 1).val ∧ (i 1).val < win2_5.index t (1 : Fin 2) * 64 + 64; rw [e51]; omega

/-- After the region its result array is the edge layer of the five arrays it was entered with. -/
theorem array (c : Dev nD) : (dat2 V c).arrAt 5 cfg2.N
    = edge (a := 800000) (k := 64) (h := 64) (n := 64) (V c main_v32) (V c main_v12) (V c main_arg5) (V c main_v33) (V c main_arg9) :=
  (dat2 V c).arrAt_eq_of_cover 5 _ (fun t _ => flushed V c t) covered

end Cert.KernelIdeal.Region2

end
-- ==== Proof.Region3.lean ====
/-
  The third edge-message region, read as a function of whole arrays.  Its grid has 125 points; point `t` loads rows
  6400·t … 6400·t + 6399 of the gathered node features and of the edge features, both 64 × 64 weight matrices and
  the bias row, and writes the edge layer of these back to the same rows of its result.  The blocks written tile
  the result, so after the region the result array is the edge layer of the five arrays as the region found them.
-/
import proofs.«166146_j4587025072491_1_alg».proof.Proof.Gen.KernelIdeal.Frame
import proofs.«166146_j4587025072491_1_alg».proof.Proof.Bodies
import Idealize.ShloMosaic.Lib.Pipeline.Value

set_option maxRecDepth 16384

noncomputable section

namespace Cert.KernelIdeal.Region3

open Cert.KernelIdeal Cert.KernelIdeal.Gen Cert.KernelIdeal.Bodies Cert.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point `t`: the three row-blocked windows at block row `t`, the two
    weight matrices and the bias at their one block. -/
theorem blocks_at : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the edge layer of the arrays at the region's entry. -/
theorem flushed (c : Dev nD) (t : Fin cfg3.N) :
    (dat3 V c).flushed 5 t = ((cfg3.win 5).blk t).view.read (Elt Ideal)
      (edge (a := 800000) (k := 64) (h := 64) (n := 64) (V c main_v45) (V c main_v12) (V c main_arg5) (V c main_v46) (V c main_arg9)) := by
  show (cfg3.win 5).cut (grid3.coords t) ((dat3 V c).after 5 t) = _
  rw [after3_5]
  unfold out3_5
  rw [View.canon_unit_zero origin]
  simp only [View.ld_unit_zero (S := S6400x64) origin, View.ld_unit_zero (S := S64x64) origin, View.ld_unit_zero (S := S1x64) origin]
  rw [edge_pay3]
  obtain ⟨e00, e01, e10, e11, e20, e21, e30, e31, e40, e41, e50, e51⟩ := blocks_at t
  funext j
  show edgeAt (a := 6400) (k := 64) (h := 64) (n := 64) (iblk3 V c 0 t) (iblk3 V c 1 t) (iblk3 V c 2 t) (iblk3 V c 3 t) (iblk3 V c 4 t) (j 0) (j 1)
    = edgeAt (a := 800000) (k := 64) (h := 64) (n := 64) (V c main_v45) (V c main_v12) (V c main_arg5) (V c main_v46) (V c main_arg9)
        ((((cfg3.win 5).blk t).view.emb j) 0) ((((cfg3.win 5).blk t).view.emb j) 1)
  refine edgeAt_congr _ _ _ _ _ _ _ _ _ _ _ _ _ _ (fun s => ?_) (fun s => ?_) (funext fun y => ?_) (funext fun y => ?_) (fun s => ?_)
  · show V c main_v45 (((cfg3.win 0).blk t).view.emb (ix2 (j 0) s)) = V c main_v45 (ix2 ((((cfg3.win 5).blk t).view.emb j) 0) s)
    refine congrArg (V c main_v45) (funext fun a => Fin.ext ?_)
    match a with
    | ⟨0, _⟩ => show win3_0.index t (0 : Fin 2) * 6400 + 1 * (j 0).val = win3_5.index t (0 : Fin 2) * 6400 + 1 * (j 0).val; rw [e00, e50]
    | ⟨1, _⟩ => show win3_0.index t (1 : Fin 2) * 64 + 1 * s.val = s.val; rw [e01]; omega
  · show V c main_v12 (((cfg3.win 1).blk t).view.emb (ix2 (j 0) s)) = V c main_v12 (ix2 ((((cfg3.win 5).blk t).view.emb j) 0) s)
    refine congrArg (V c main_v12) (funext fun a => Fin.ext ?_)
    match a with
    | ⟨0, _⟩ => show win3_1.index t (0 : Fin 2) * 6400 + 1 * (j 0).val = win3_5.index t (0 : Fin 2) * 6400 + 1 * (j 0).val; rw [e10, e50]
    | ⟨1, _⟩ => show win3_1.index t (1 : Fin 2) * 64 + 1 * s.val = s.val; rw [e11]; omega
  · show V c main_arg5 (((cfg3.win 2).blk t).view.emb y) = V c main_arg5 y
    refine congrArg (V c main_arg5) (funext fun a => Fin.ext ?_)
    match a with
    | ⟨0, _⟩ => show win3_2.index t (0 : Fin 2) * 64 + 1 * (y 0).val = (y 0).val; rw [e20]; omega
    | ⟨1, _⟩ => show win3_2.index t (1 : Fin 2) * 64 + 1 * (y 1).val = (y 1).val; rw [e21]; omega
  · show V c main_v46 (((cfg3.win 3).blk t).view.emb y) = V c main_v46 y
    refine congrArg (V c main_v46) (funext fun a => Fin.ext ?_)
    match a with
    | ⟨0, _⟩ => show win3_3.index t (0 : Fin 2) * 1 + 1 * (y 0).val = (y 0).val; rw [e30]; omega
    | ⟨1, _⟩ => show win3_3.index t (1 : Fin 2) * 64 + 1 * (y 1).val = (y 1).val; rw [e31]; omega
  · show V c main_arg9 (((cfg3.win 4).blk t).view.emb (ix2 s (j 1))) = V c main_arg9 (ix2 s ((((cfg3.win 5).blk t).view.emb j) 1))
    refine congrArg (V c main_arg9) (funext fun a => Fin.ext ?_)
    match a with
    | ⟨0, _⟩ => show win3_4.index t (0 : Fin 2) * 64 + 1 * s.val = s.val; rw [e40]; omega
    | ⟨1, _⟩ => show win3_4.index t (1 : Fin 2) * 64 + 1 * (j 1).val = win3_5.index t (1 : Fin 2) * 64 + 1 * (j 1).val; rw [e41, e51]

/-- An index of the result is in point `t`'s block iff each coordinate is in the block's range on its axis. -/
theorem mem_block (t : Fin cfg3.N) (i : S800000x64.Idx) :
    i ∈ ((cfg3.win 5).blk t).view.set ↔ ∀ a : Fin 2, win3_5.index t a * S6400x64.size a ≤ (i a).val ∧ (i a).val < win3_5.index t a * S6400x64.size a + S6400x64.size a := by
  show i ∈ ((View.whole main_v47).slice (win3_5.rect t)).set ↔ _
  rw [View.set_slice_whole, Rect.mem_set_unit]
  exact Iff.rfl

/-- Row `r` of the result is written by point `r / 6400`. -/
theorem covered (i : S800000x64.Idx) : ∃ t : Fin cfg3.N, (cfg3.win 5).flush t = true ∧ i ∈ ((cfg3.win 5).blk t).view.set := by
  have hi0 : (i 0).val < 800000 := (i 0).isLt
  have hi1 : (i 1).val < 64 := (i 1).isLt
  obtain ⟨t, ht⟩ : ∃ t : Fin cfg3.N, t.val = (i 0).val / 6400 :=
    ⟨⟨(i 0).val / 6400, by rw [show cfg3.N = 125 from N_3]; omega⟩, rfl⟩
  obtain ⟨e00, e01, e10, e11, e20, e21, e30, e31, e40, e41, e50, e51⟩ := blocks_at t
  refine ⟨t, flush3_5 t, ?_⟩
  rw [mem_block]
  intro a
  match a with
  | ⟨0, _⟩ => show win3_5.index t (0 : Fin 2) * 6400 ≤ (i 0).val ∧ (i 0).val < win3_5.index t (0 : Fin 2) * 6400 + 6400; rw [e50, ht]; omega
  | ⟨1, _⟩ => show win3_5.index t (1 : Fin 2) * 64 ≤ (i 1).val ∧ (i 1).val < win3_5.index t (1 : Fin 2) * 64 + 64; rw [e51]; omega

/-- After the region its result array is the edge layer of the five arrays it was entered with. -/
theorem array (c : Dev nD) : (dat3 V c).arrAt 5 cfg3.N
    = edge (a := 800000) (k := 64) (h := 64) (n := 64) (V c main_v45) (V c main_v12) (V c main_arg5) (V c main_v46) (V c main_arg9) :=
  (dat3 V c).arrAt_eq_of_cover 5 _ (fun t _ => flushed V c t) covered

end Cert.KernelIdeal.Region3

end
-- ==== Proof.Region4.lean ====
/-
  The readout region, read as a function of whole arrays.  Its grid has 10 points; point `t` loads rows
  5000·t … 5000·t + 4999 of the node features, the two weight matrices and the two bias rows, and writes the readout
  layer of these back to the same rows of its result.  The blocks written tile the result, so after the region the
  result array is the readout layer of the five arrays as the region found them.
-/
import proofs.«166146_j4587025072491_1_alg».proof.Proof.Gen.KernelIdeal.Frame
import proofs.«166146_j4587025072491_1_alg».proof.Proof.Bodies
import Idealize.ShloMosaic.Lib.Pipeline.Value

set_option maxRecDepth 16384

noncomputable section

namespace Cert.KernelIdeal.Region4

open Cert.KernelIdeal Cert.KernelIdeal.Gen Cert.KernelIdeal.Bodies Cert.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point `t`: the node features and the result at block row `t`, the
    weights and the biases at their one block. -/
theorem blocks_at : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point `t` writes back is block `t` of the readout layer of the arrays at the region's entry. -/
theorem flushed (c : Dev nD) (t : Fin cfg4.N) :
    (dat4 V c).flushed 5 t = ((cfg4.win 5).blk t).view.read (Elt Ideal)
      (readout (a := 50000) (k := 64) (h := 128) (n := 4) (V c main_v51) (V c main_arg10) (V c main_v52) (V c main_arg12) (V c main_v53)) := by
  show (cfg4.win 5).cut (grid4.coords t) ((dat4 V c).after 5 t) = _
  rw [after4_5]
  unfold out4_5
  rw [View.canon_unit_zero origin]
  simp only [View.ld_unit_zero (S := S5000x64) origin, View.ld_unit_zero (S := S64x128) origin, View.ld_unit_zero (S := S1x128) origin,
    View.ld_unit_zero (S := S128x4) origin, View.ld_unit_zero (S := S1x4) origin]
  rw [readout_pay]
  obtain ⟨e00, e01, e10, e11, e20, e21, e30, e31, e40, e41, e50, e51⟩ := blocks_at t
  funext j
  show readoutAt (a := 5000) (k := 64) (h := 128) (n := 4) (iblk4 V c 0 t) (iblk4 V c 1 t) (iblk4 V c 2 t) (iblk4 V c 3 t) (iblk4 V c 4 t) (j 0) (j 1)
    = readoutAt (a := 50000) (k := 64) (h := 128) (n := 4) (V c main_v51) (V c main_arg10) (V c main_v52) (V c main_arg12) (V c main_v53)
        ((((cfg4.win 5).blk t).view.emb j) 0) ((((cfg4.win 5).blk t).view.emb j) 1)
  refine readoutAt_congr _ _ _ _ _ _ _ _ _ _ _ _ _ _ (fun s => ?_) (funext fun y => ?_) (funext fun y => ?_) (fun s => ?_) ?_
  · show V c main_v51 (((cfg4.win 0).blk t).view.emb (ix2 (j 0) s)) = V c main_v51 (ix2 ((((cfg4.win 5).blk t).view.emb j) 0) s)
    refine congrArg (V c main_v51) (funext fun a => Fin.ext ?_)
    match a with
    | ⟨0, _⟩ => show win4_0.index t (0 : Fin 2) * 5000 + 1 * (j 0).val = win4_5.index t (0 : Fin 2) * 5000 + 1 * (j 0).val; rw [e00, e50]
    | ⟨1, _⟩ => show win4_0.index t (1 : Fin 2) * 64 + 1 * s.val = s.val; rw [e01]; omega
  · show V c main_arg10 (((cfg4.win 1).blk t).view.emb y) = V c main_arg10 y
    refine congrArg (V c main_arg10) (funext fun a => Fin.ext ?_)
    match a with
    | ⟨0, _⟩ => show win4_1.index t (0 : Fin 2) * 64 + 1 * (y 0).val = (y 0).val; rw [e10]; omega
    | ⟨1, _⟩ => show win4_1.index t (1 : Fin 2) * 128 + 1 * (y 1).val = (y 1).val; rw [e11]; omega
  · show V c main_v52 (((cfg4.win 2).blk t).view.emb y) = V c main_v52 y
    refine congrArg (V c main_v52) (funext fun a => Fin.ext ?_)
    match a with
    | ⟨0, _⟩ => show win4_2.index t (0 : Fin 2) * 1 + 1 * (y 0).val = (y 0).val; rw [e20]; omega
    | ⟨1, _⟩ => show win4_2.index t (1 : Fin 2) * 128 + 1 * (y 1).val = (y 1).val; rw [e21]; omega
  · show V c main_arg12 (((cfg4.win 3).blk t).view.emb (ix2 s (j 1))) = V c main_arg12 (ix2 s ((((cfg4.win 5).blk t).view.emb j) 1))
    refine congrArg (V c main_arg12) (funext fun a => Fin.ext ?_)
    match a with
    | ⟨0, _⟩ => show win4_3.index t (0 : Fin 2) * 128 + 1 * s.val = s.val; rw [e30]; omega
    | ⟨1, _⟩ => show win4_3.index t (1 : Fin 2) * 4 + 1 * (j 1).val = win4_5.index t (1 : Fin 2) * 4 + 1 * (j 1).val; rw [e31, e51]
  · show V c main_v53 (((cfg4.win 4).blk t).view.emb (ix2 (0 : Fin 1) (j 1))) = V c main_v53 (ix2 (0 : Fin 1) ((((cfg4.win 5).blk t).view.emb j) 1))
    refine congrArg (V c main_v53) (funext fun a => Fin.ext ?_)
    match a with
    | ⟨0, _⟩ => show win4_4.index t (0 : Fin 2) * 1 + 1 * 0 = 0; rw [e40]
    | ⟨1, _⟩ => show win4_4.index t (1 : Fin 2) * 4 + 1 * (j 1).val = win4_5.index t (1 : Fin 2) * 4 + 1 * (j 1).val; rw [e41, e51]

/-- An index of the result is in point `t`'s block iff each coordinate is in the block's range on its axis. -/
theorem mem_block (t : Fin cfg4.N) (i : S50000x4.Idx) :
    i ∈ ((cfg4.win 5).blk t).view.set ↔ ∀ a : Fin 2, win4_5.index t a * S5000x4.size a ≤ (i a).val ∧ (i a).val < win4_5.index t a * S5000x4.size a + S5000x4.size a := by
  show i ∈ ((View.whole main_v54).slice (win4_5.rect t)).set ↔ _
  rw [View.set_slice_whole, Rect.mem_set_unit]
  exact Iff.rfl

/-- Row `r` of the result is written by point `r / 5000`. -/
theorem covered (i : S50000x4.Idx) : ∃ t : Fin cfg4.N, (cfg4.win 5).flush t = true ∧ i ∈ ((cfg4.win 5).blk t).view.set := by
  have hi0 : (i 0).val < 50000 := (i 0).isLt
  have hi1 : (i 1).val < 4 := (i 1).isLt
  obtain ⟨t, ht⟩ : ∃ t : Fin cfg4.N, t.val = (i 0).val / 5000 :=
    ⟨⟨(i 0).val / 5000, by rw [show cfg4.N = 10 from N_4]; omega⟩, rfl⟩
  obtain ⟨e00, e01, e10, e11, e20, e21, e30, e31, e40, e41, e50, e51⟩ := blocks_at t
  refine ⟨t, flush4_5 t, ?_⟩
  rw [mem_block]
  intro a
  match a with
  | ⟨0, _⟩ => show win4_5.index t (0 : Fin 2) * 5000 ≤ (i 0).val ∧ (i 0).val < win4_5.index t (0 : Fin 2) * 5000 + 5000; rw [e50, ht]; omega
  | ⟨1, _⟩ => show win4_5.index t (1 : Fin 2) * 4 ≤ (i 1).val ∧ (i 1).val < win4_5.index t (1 : Fin 2) * 4 + 4; rw [e51]; omega

/-- After the region its result array is the readout layer of the five arrays it was entered with. -/
theorem array (c : Dev nD) : (dat4 V c).arrAt 5 cfg4.N
    = readout (a := 50000) (k := 64) (h := 128) (n := 4) (V c main_v51) (V c main_arg10) (V c main_v52) (V c main_arg12) (V c main_v53) :=
  (dat4 V c).arrAt_eq_of_cover 5 _ (fun t _ => flushed V c t) covered

end Cert.KernelIdeal.Region4

end
-- ==== Proof.Network.lean ====
/-
  The message-passing network as one function of its fourteen arguments, over three abstract dense layers.

  Every node starts from the embedding row of its atomic number.  The edge features `lin ea dfW dfb` are computed
  once.  A round gathers, for every edge, the feature row of the edge's source node, turns it and the edge's features
  into a message (`msg`), adds the messages up per destination node and adds the sums to the node features.  After
  three rounds a readout (`ro`) maps every node's features to four numbers, which are summed per graph.

  Gathering by an index array, summing by an index array (a scatter-add into zeros) and the arithmetic on the index
  arrays themselves are the host's own operations; both programs perform exactly these, so they stay as they are
  printed.  The three dense layers are parameters: the kernel computes them block by block on the TensorCore, the
  reference by whole-array matrix products, and the certificate's mathematics is that the two agree.
-/
import proofs.«166146_j4587025072491_1_alg».proof.Proof.Gen.KernelIdeal
import Idealize.ShloMosaic.PureOps.Ideal

noncomputable section

namespace Cert.Net

open Cert.KernelIdeal Cert.KernelIdeal.Facts₀ Idealize.ShloMosaic

/-- The contents of an array of shape `s` and element type `e` at the ideal values. -/
abbrev Arr (s : Shape) (e : EltTy) : Type := (⟨s, e⟩ : BufTy).Contents (Elt Ideal)

/-- The source node of every edge: row 0 of the edge index. -/
def srcOf (ei : Arr S2x800000 .i32) : Arr S800000 .i32 :=
  shapeCast S800000 (extractStridedSlice S1x800000 ![0, 0] ei slices_S2x800000_S1x800000_0_0) shapeCasts_S1x800000_S800000

/-- The destination node of every edge: row 1 of the edge index. -/
def dstOf (ei : Arr S2x800000 .i32) : Arr S800000 .i32 :=
  shapeCast S800000 (extractStridedSlice S1x800000 ![1, 0] ei slices_S2x800000_S1x800000_1_0) shapeCasts_S1x800000_S800000

/-- Every node's first features: the embedding row of its atomic number (a negative number counts from the end). -/
def embedded (z : Arr S50000 .i32) (emb : Arr S10x64 .f32) : Arr S50000x64 .f32 :=
  Host.gather gather_S10x64_S50000x1_S50000x64_1_0_n_n_0_1_164 emb
    (broadcastInDim S50000x1 ![0] bcast_S50000_S50000x1_0
      (select (cmpi .slt z (broadcastInDim S50000 ![] bcast_S_S50000 (constantI S_ 32 0#32)))
        (addi z (broadcastInDim S50000 ![] bcast_S_S50000 (constantI S_ 32 10#32))) z))

/-- For every edge, the feature row of its source node (a negative index counts from the end). -/
def gathered (C : Arr S50000x64 .f32) (ei : Arr S2x800000 .i32) : Arr S800000x64 .f32 :=
  Host.gather gather_S50000x64_S800000x1_S800000x64_1_0_n_n_0_1_164 C
    (broadcastInDim S800000x1 ![0] bcast_S800000_S800000x1_0
      (select (cmpi .slt (srcOf ei) (broadcastInDim S800000 ![] bcast_S_S800000 (constantI S_ 32 0#32)))
        (addi (srcOf ei) (broadcastInDim S800000 ![] bcast_S_S800000 (constantI S_ 32 50000#32))) (srcOf ei)))

/-- The node features plus, per node, the sum of the messages of the edges that end at it. -/
def aggregated (C : Arr S50000x64 .f32) (ei : Arr S2x800000 .i32) (messages : Arr S800000x64 .f32) : Arr S50000x64 .f32 :=
  addf (F := Ideal) C (Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 (dstOf ei)) messages)

/-- Per graph, the sum of its nodes' readouts. -/
def pooled (bt : Arr S50000 .i32) (h : Arr S50000x4 .f32) : Arr S512x4 .f32 :=
  Host.scatterAdd (F := Ideal) scatter_S512x4_S50000x1_S50000x4_1_0_0_1
    (broadcastInDim S512x4 ![] bcast_S_S512x4 (constant (F := Ideal) S_ .f32 0x00000000#32))
    (broadcastInDim S50000x1 ![0] bcast_S50000_S50000x1_0 bt) h

/-- The three dense layers a network is built over. -/
structure Layers where
  /-- the edge features from the edge attributes, a weight matrix and a bias -/
  lin : Arr S800000x64 .f32 → Arr S64x64 .f32 → Arr S64 .f32 → Arr S800000x64 .f32
  /-- the messages from the gathered node rows, the edge features, two weight matrices and a bias -/
  msg : Arr S800000x64 .f32 → Arr S800000x64 .f32 → Arr S64x64 .f32 → Arr S64 .f32 → Arr S64x64 .f32 → Arr S800000x64 .f32
  /-- the readout from the node features, two weight matrices and two biases -/
  ro : Arr S50000x64 .f32 → Arr S64x128 .f32 → Arr S128 .f32 → Arr S128x4 .f32 → Arr S4 .f32 → Arr S50000x4 .f32

/-- One round of message passing. -/
def advance (L : Layers) (ei : Arr S2x800000 .i32) (feat : Arr S800000x64 .f32) (cfW : Arr S64x64 .f32) (cfb : Arr S64 .f32)
    (fcW : Arr S64x64 .f32) (C : Arr S50000x64 .f32) : Arr S50000x64 .f32 :=
  aggregated C ei (L.msg (gathered C ei) feat cfW cfb fcW)

/-- The whole network: embedding, three rounds, readout, sum per graph. -/
def network (L : Layers) (z : Arr S50000 .i32) (ei : Arr S2x800000 .i32) (ea : Arr S800000x64 .f32) (bt : Arr S50000 .i32)
    (emb : Arr S10x64 .f32) (cfW : Arr S64x64 .f32) (cfb : Arr S64 .f32) (dfW : Arr S64x64 .f32) (dfb : Arr S64 .f32)
    (fcW : Arr S64x64 .f32) (W1 : Arr S64x128 .f32) (b1 : Arr S128 .f32) (W2 : Arr S128x4 .f32) (b2 : Arr S4 .f32) : Arr S512x4 .f32 :=
  pooled bt (L.ro
    (advance L ei (L.lin ea dfW dfb) cfW cfb fcW
      (advance L ei (L.lin ea dfW dfb) cfW cfb fcW
        (advance L ei (L.lin ea dfW dfb) cfW cfb fcW (embedded z emb))))
    W1 b1 W2 b2)

end Cert.Net

end
-- ==== Proof.KernelLayers.lean ====
/-
  The kernel's three layers on whole arrays: the dense layers of Proof/Layers.lean, each bias vector first laid out as
  the one-row matrix the kernels load.
-/
import proofs.«166146_j4587025072491_1_alg».proof.Proof.Layers
import proofs.«166146_j4587025072491_1_alg».proof.Proof.Network

noncomputable section

namespace Cert.KernelIdeal.Whole

open Cert.KernelIdeal Cert.Layers Cert.Net Idealize.ShloMosaic

/-- The layers as the kernel computes them: a bias of `n` numbers enters as a 1 × n matrix. -/
def kernelLayers : Net.Layers where
  lin x w b := affine (a := 800000) (k := 64) (h := 64) x w (shapeCast S1x64 b Facts₀.shapeCasts_S64_S1x64)
  msg cg d w1 b w2 := edge (a := 800000) (k := 64) (h := 64) (n := 64) cg d w1 (shapeCast S1x64 b Facts₀.shapeCasts_S64_S1x64) w2
  ro x w1 b1 w2 b2 := readout (a := 50000) (k := 64) (h := 128) (n := 4) x w1 (shapeCast S1x128 b1 Facts₀.shapeCasts_S128_S1x128) w2
    (shapeCast S1x4 b2 Facts₀.shapeCasts_S4_S1x4)

end Cert.KernelIdeal.Whole

end
-- ==== Proof.KernelValue.lean ====
/-
  The idealized kernel's result as a function of its arguments.  The buffer contents at the last segment boundary
  are traced back through the program, boundary by boundary: a host stretch's results are its operations applied to
  the contents before it; a region's result array is the dense layer of its input arrays (the five region modules);
  every other buffer is carried unchanged.  Stage by stage each buffer that is read later is identified with a
  term of the network over the kernel's three layers, and the result buffer comes out as the whole network.
-/
import proofs.«166146_j4587025072491_1_alg».proof.Proof.Gen.KernelIdeal.Frame
import proofs.«166146_j4587025072491_1_alg».proof.Proof.Steps
import proofs.«166146_j4587025072491_1_alg».proof.Proof.Region0
import proofs.«166146_j4587025072491_1_alg».proof.Proof.Region1
import proofs.«166146_j4587025072491_1_alg».proof.Proof.Region2
import proofs.«166146_j4587025072491_1_alg».proof.Proof.Region3
import proofs.«166146_j4587025072491_1_alg».proof.Proof.Region4
import proofs.«166146_j4587025072491_1_alg».proof.Proof.Network
import proofs.«166146_j4587025072491_1_alg».proof.Proof.KernelLayers
import Idealize.ShloMosaic.Lib.StableHlo.Run

set_option maxRecDepth 16384

noncomputable section

namespace Cert.KernelIdeal.Whole

open Cert.KernelIdeal Cert.KernelIdeal.Gen Cert.Layers Cert.Net
open Idealize.ShloMosaic Idealize.ShloMosaic.TcCoe Idealize.SL.Sem Idealize.ShloMosaic.StableHlo

/-! ## Buffers that are carried unchanged -/

/-- A buffer no host operation writes and no region has as its result: it holds its launch contents throughout. -/
structure Untouched (r : Ref sig .tc) : Prop where
  h0 : r ∉ wr0
  h1 : r ∉ wr1
  h2 : r ∉ wr2
  h3 : r ∉ wr3
  h4 : r ∉ wr4
  h5 : r ∉ wr5
  o0 : r ≠ main_v12
  o1 : r ≠ main_v21
  o2 : r ≠ main_v34
  o3 : r ≠ main_v47
  o4 : r ≠ main_v54

theorem arg2_untouched : Untouched main_arg2 := ⟨by decide, by decide, by decide, by decide, by decide, by decide, by decide, by decide, by decide, by decide, by decide⟩
theorem arg3_untouched : Untouched main_arg3 := ⟨by decide, by decide, by decide, by decide, by decide, by decide, by decide, by decide, by decide, by decide, by decide⟩
theorem arg5_untouched : Untouched main_arg5 := ⟨by decide, by decide, by decide, by decide, by decide, by decide, by decide, by decide, by decide, by decide, by decide⟩
theorem arg6_untouched : Untouched main_arg6 := ⟨by decide, by decide, by decide, by decide, by decide, by decide, by decide, by decide, by decide, by decide, by decide⟩
theorem arg7_untouched : Untouched main_arg7 := ⟨by decide, by decide, by decide, by decide, by decide, by decide, by decide, by decide, by decide, by decide, by decide⟩
theorem arg9_untouched : Untouched main_arg9 := ⟨by decide, by decide, by decide, by decide, by decide, by decide, by decide, by decide, by decide, by decide, by decide⟩
theorem arg10_untouched : Untouched main_arg10 := ⟨by decide, by decide, by decide, by decide, by decide, by decide, by decide, by decide, by decide, by decide, by decide⟩
theorem arg11_untouched : Untouched main_arg11 := ⟨by decide, by decide, by decide, by decide, by decide, by decide, by decide, by decide, by decide, by decide, by decide⟩
theorem arg12_untouched : Untouched main_arg12 := ⟨by decide, by decide, by decide, by decide, by decide, by decide, by decide, by decide, by decide, by decide, by decide⟩
theorem arg13_untouched : Untouched main_arg13 := ⟨by decide, by decide, by decide, by decide, by decide, by decide, by decide, by decide, by decide, by decide, by decide⟩

/-- A buffer written by the first host stretch and by nothing after it. -/
structure Early (r : Ref sig .tc) : Prop where
  h1 : r ∉ wr1
  h2 : r ∉ wr2
  h3 : r ∉ wr3
  h4 : r ∉ wr4
  o0 : r ≠ main_v12
  o1 : r ≠ main_v21
  o2 : r ≠ main_v34
  o3 : r ≠ main_v47

theorem v1_early : Early main_v1 := ⟨by decide, by decide, by decide, by decide, by decide, by decide, by decide, by decide⟩
theorem v3_early : Early main_v3 := ⟨by decide, by decide, by decide, by decide, by decide, by decide, by decide, by decide⟩
theorem v10_early : Early main_v10 := ⟨by decide, by decide, by decide, by decide, by decide, by decide, by decide, by decide⟩

variable (m : (ℓ : Loc nD τ sig) → Buf (Elt Ideal) ℓ) (ρ : Dev nD → PrngReg) (c : Dev nD)
variable {r : Ref sig .tc}

theorem at1 (u : Untouched r) : W1 m ρ c (Proc.devRef .tc r) = m ((c : Thread nD τ).loc r) := keep0 _ r u.h0
theorem at2 (u : Untouched r) : W2 m ρ c (Proc.devRef .tc r) = m ((c : Thread nD τ).loc r) := (pass0 m ρ c r u.o0).trans (at1 m ρ c u)
theorem at3 (u : Untouched r) : W3 m ρ c (Proc.devRef .tc r) = m ((c : Thread nD τ).loc r) := (keep1 _ r u.h1).trans (at2 m ρ c u)
theorem at4 (u : Untouched r) : W4 m ρ c (Proc.devRef .tc r) = m ((c : Thread nD τ).loc r) := (pass1 m ρ c r u.o1).trans (at3 m ρ c u)
theorem at5 (u : Untouched r) : W5 m ρ c (Proc.devRef .tc r) = m ((c : Thread nD τ).loc r) := (keep2 _ r u.h2).trans (at4 m ρ c u)
theorem at6 (u : Untouched r) : W6 m ρ c (Proc.devRef .tc r) = m ((c : Thread nD τ).loc r) := (pass2 m ρ c r u.o2).trans (at5 m ρ c u)
theorem at7 (u : Untouched r) : W7 m ρ c (Proc.devRef .tc r) = m ((c : Thread nD τ).loc r) := (keep3 _ r u.h3).trans (at6 m ρ c u)
theorem at8 (u : Untouched r) : W8 m ρ c (Proc.devRef .tc r) = m ((c : Thread nD τ).loc r) := (pass3 m ρ c r u.o3).trans (at7 m ρ c u)
theorem at9 (u : Untouched r) : W9 m ρ c (Proc.devRef .tc r) = m ((c : Thread nD τ).loc r) := (keep4 _ r u.h4).trans (at8 m ρ c u)
theorem at10 (u : Untouched r) : W10 m ρ c (Proc.devRef .tc r) = m ((c : Thread nD τ).loc r) := (pass4 m ρ c r u.o4).trans (at9 m ρ c u)

theorem early2 (u : Early r) : W2 m ρ c (Proc.devRef .tc r) = W1 m ρ c (Proc.devRef .tc r) := pass0 m ρ c r u.o0
theorem early3 (u : Early r) : W3 m ρ c (Proc.devRef .tc r) = W1 m ρ c (Proc.devRef .tc r) := (keep1 _ r u.h1).trans (early2 m ρ c u)
theorem early4 (u : Early r) : W4 m ρ c (Proc.devRef .tc r) = W1 m ρ c (Proc.devRef .tc r) := (pass1 m ρ c r u.o1).trans (early3 m ρ c u)
theorem early5 (u : Early r) : W5 m ρ c (Proc.devRef .tc r) = W1 m ρ c (Proc.devRef .tc r) := (keep2 _ r u.h2).trans (early4 m ρ c u)
theorem early6 (u : Early r) : W6 m ρ c (Proc.devRef .tc r) = W1 m ρ c (Proc.devRef .tc r) := (pass2 m ρ c r u.o2).trans (early5 m ρ c u)
theorem early7 (u : Early r) : W7 m ρ c (Proc.devRef .tc r) = W1 m ρ c (Proc.devRef .tc r) := (keep3 _ r u.h3).trans (early6 m ρ c u)
theorem early8 (u : Early r) : W8 m ρ c (Proc.devRef .tc r) = W1 m ρ c (Proc.devRef .tc r) := (pass3 m ρ c r u.o3).trans (early7 m ρ c u)

/-! ## After the first host stretch -/

theorem src_at1 : W1 m ρ c (Proc.devRef .tc main_v1) = srcOf (m ((c : Thread nD τ).loc main_arg1)) := by
  show StableHlo.after hostOps0 (W0 m ρ c) (Proc.devRef .tc main_v1) = _
  after_results
  rfl

theorem dst_at1 : W1 m ρ c (Proc.devRef .tc main_v3) = dstOf (m ((c : Thread nD τ).loc main_arg1)) := by
  show StableHlo.after hostOps0 (W0 m ρ c) (Proc.devRef .tc main_v3) = _
  after_results
  rfl

theorem nodes_at1 : W1 m ρ c (Proc.devRef .tc main_v10) = (embedded (m ((c : Thread nD τ).loc main_arg0)) (m ((c : Thread nD τ).loc main_arg4))) := by
  show StableHlo.after hostOps0 (W0 m ρ c) (Proc.devRef .tc main_v10) = _
  after_results
  rfl

theorem bias_at1 : W1 m ρ c (Proc.devRef .tc main_v11) = (shapeCast S1x64 (m ((c : Thread nD τ).loc main_arg8)) Facts₀.shapeCasts_S64_S1x64) := by
  show StableHlo.after hostOps0 (W0 m ρ c) (Proc.devRef .tc main_v11) = _
  after_results
  rfl

/-! ## Round by round -/

/-- After the first region: the edge features. -/
theorem feat_at2 : W2 m ρ c (Proc.devRef .tc main_v12) = (kernelLayers.lin (m ((c : Thread nD τ).loc main_arg2)) (m ((c : Thread nD τ).loc main_arg7)) (m ((c : Thread nD τ).loc main_arg8))) := by
  refine (W2_arr m ρ c 3).trans ((Region0.array (V1 m ρ) c).trans ?_)
  show affine (a := 800000) (k := 64) (h := 64) (W1 m ρ c (Proc.devRef .tc main_arg2)) (W1 m ρ c (Proc.devRef .tc main_arg7)) (W1 m ρ c (Proc.devRef .tc main_v11)) = _
  rw [at1 m ρ c arg2_untouched, at1 m ρ c arg7_untouched, bias_at1 m ρ c]
  rfl

/-- The edge features are not written again. -/
theorem feat_at3 : W3 m ρ c (Proc.devRef .tc main_v12) = (kernelLayers.lin (m ((c : Thread nD τ).loc main_arg2)) (m ((c : Thread nD τ).loc main_arg7)) (m ((c : Thread nD τ).loc main_arg8))) := (keep1 _ main_v12 (by decide)).trans (feat_at2 m ρ c)
theorem feat_at5 : W5 m ρ c (Proc.devRef .tc main_v12) = (kernelLayers.lin (m ((c : Thread nD τ).loc main_arg2)) (m ((c : Thread nD τ).loc main_arg7)) (m ((c : Thread nD τ).loc main_arg8))) :=
  (keep2 _ main_v12 (by decide)).trans ((pass1 m ρ c main_v12 (by decide)).trans (feat_at3 m ρ c))
theorem feat_at7 : W7 m ρ c (Proc.devRef .tc main_v12) = (kernelLayers.lin (m ((c : Thread nD τ).loc main_arg2)) (m ((c : Thread nD τ).loc main_arg7)) (m ((c : Thread nD τ).loc main_arg8))) :=
  (keep3 _ main_v12 (by decide)).trans ((pass2 m ρ c main_v12 (by decide)).trans (feat_at5 m ρ c))

/-- Before the first edge region: the gathered rows of the embedded features, and the bias row. -/
theorem gath_at3 : W3 m ρ c (Proc.devRef .tc main_v19) = (gathered (embedded (m ((c : Thread nD τ).loc main_arg0)) (m ((c : Thread nD τ).loc main_arg4))) (m ((c : Thread nD τ).loc main_arg1))) := by
  show StableHlo.after hostOps1 (W2 m ρ c) (Proc.devRef .tc main_v19) = _
  after_results
  rw [early2 m ρ c v10_early, early2 m ρ c v1_early, nodes_at1 m ρ c, src_at1 m ρ c]
  rfl

theorem bias_at3 : W3 m ρ c (Proc.devRef .tc main_v20) = (shapeCast S1x64 (m ((c : Thread nD τ).loc main_arg6)) Facts₀.shapeCasts_S64_S1x64) := by
  show StableHlo.after hostOps1 (W2 m ρ c) (Proc.devRef .tc main_v20) = _
  after_results
  rw [at2 m ρ c arg6_untouched]
  rfl

/-- After the first edge region: the first round's messages. -/
theorem msg_at4 : W4 m ρ c (Proc.devRef .tc main_v21) = (kernelLayers.msg (gathered (embedded (m ((c : Thread nD τ).loc main_arg0)) (m ((c : Thread nD τ).loc main_arg4))) (m ((c : Thread nD τ).loc main_arg1))) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9))) := by
  refine (W4_arr m ρ c 5).trans ((Region1.array (V3 m ρ) c).trans ?_)
  show edge (a := 800000) (k := 64) (h := 64) (n := 64) (W3 m ρ c (Proc.devRef .tc main_v19)) (W3 m ρ c (Proc.devRef .tc main_v12)) (W3 m ρ c (Proc.devRef .tc main_arg5)) (W3 m ρ c (Proc.devRef .tc main_v20)) (W3 m ρ c (Proc.devRef .tc main_arg9)) = _
  rw [gath_at3 m ρ c, feat_at3 m ρ c, at3 m ρ c arg5_untouched, bias_at3 m ρ c, at3 m ρ c arg9_untouched]
  rfl

/-- Before the second edge region: the node features after one round, their gathered rows, and the bias row. -/
theorem nodes_at5 : W5 m ρ c (Proc.devRef .tc main_v25) = (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (embedded (m ((c : Thread nD τ).loc main_arg0)) (m ((c : Thread nD τ).loc main_arg4)))) := by
  show StableHlo.after hostOps2 (W4 m ρ c) (Proc.devRef .tc main_v25) = _
  after_results
  rw [early4 m ρ c v10_early, early4 m ρ c v3_early, nodes_at1 m ρ c, dst_at1 m ρ c, msg_at4 m ρ c]
  rfl

theorem gath_at5 : W5 m ρ c (Proc.devRef .tc main_v32) = (gathered (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (embedded (m ((c : Thread nD τ).loc main_arg0)) (m ((c : Thread nD τ).loc main_arg4)))) (m ((c : Thread nD τ).loc main_arg1))) := by
  show StableHlo.after hostOps2 (W4 m ρ c) (Proc.devRef .tc main_v32) = _
  after_results_simp
  rw [early4 m ρ c v10_early, early4 m ρ c v3_early, early4 m ρ c v1_early, nodes_at1 m ρ c, dst_at1 m ρ c, src_at1 m ρ c, msg_at4 m ρ c]
  rfl

theorem bias_at5 : W5 m ρ c (Proc.devRef .tc main_v33) = (shapeCast S1x64 (m ((c : Thread nD τ).loc main_arg6)) Facts₀.shapeCasts_S64_S1x64) := by
  show StableHlo.after hostOps2 (W4 m ρ c) (Proc.devRef .tc main_v33) = _
  after_results
  rw [at4 m ρ c arg6_untouched]
  rfl

/-- After the second edge region: the second round's messages. -/
theorem msg_at6 : W6 m ρ c (Proc.devRef .tc main_v34) = (kernelLayers.msg (gathered (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (embedded (m ((c : Thread nD τ).loc main_arg0)) (m ((c : Thread nD τ).loc main_arg4)))) (m ((c : Thread nD τ).loc main_arg1))) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9))) := by
  refine (W6_arr m ρ c 5).trans ((Region2.array (V5 m ρ) c).trans ?_)
  show edge (a := 800000) (k := 64) (h := 64) (n := 64) (W5 m ρ c (Proc.devRef .tc main_v32)) (W5 m ρ c (Proc.devRef .tc main_v12)) (W5 m ρ c (Proc.devRef .tc main_arg5)) (W5 m ρ c (Proc.devRef .tc main_v33)) (W5 m ρ c (Proc.devRef .tc main_arg9)) = _
  rw [gath_at5 m ρ c, feat_at5 m ρ c, at5 m ρ c arg5_untouched, bias_at5 m ρ c, at5 m ρ c arg9_untouched]
  rfl

theorem nodes_at6 : W6 m ρ c (Proc.devRef .tc main_v25) = (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (embedded (m ((c : Thread nD τ).loc main_arg0)) (m ((c : Thread nD τ).loc main_arg4)))) := (pass2 m ρ c main_v25 (by decide)).trans (nodes_at5 m ρ c)

/-- Before the third edge region. -/
theorem nodes_at7 : W7 m ρ c (Proc.devRef .tc main_v38) = (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (embedded (m ((c : Thread nD τ).loc main_arg0)) (m ((c : Thread nD τ).loc main_arg4))))) := by
  show StableHlo.after hostOps3 (W6 m ρ c) (Proc.devRef .tc main_v38) = _
  after_results
  rw [nodes_at6 m ρ c, early6 m ρ c v3_early, dst_at1 m ρ c, msg_at6 m ρ c]
  rfl

theorem gath_at7 : W7 m ρ c (Proc.devRef .tc main_v45) = (gathered (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (embedded (m ((c : Thread nD τ).loc main_arg0)) (m ((c : Thread nD τ).loc main_arg4))))) (m ((c : Thread nD τ).loc main_arg1))) := by
  show StableHlo.after hostOps3 (W6 m ρ c) (Proc.devRef .tc main_v45) = _
  after_results_simp
  rw [nodes_at6 m ρ c, early6 m ρ c v3_early, early6 m ρ c v1_early, dst_at1 m ρ c, src_at1 m ρ c, msg_at6 m ρ c]
  rfl

theorem bias_at7 : W7 m ρ c (Proc.devRef .tc main_v46) = (shapeCast S1x64 (m ((c : Thread nD τ).loc main_arg6)) Facts₀.shapeCasts_S64_S1x64) := by
  show StableHlo.after hostOps3 (W6 m ρ c) (Proc.devRef .tc main_v46) = _
  after_results
  rw [at6 m ρ c arg6_untouched]
  rfl

/-- After the third edge region: the third round's messages. -/
theorem msg_at8 : W8 m ρ c (Proc.devRef .tc main_v47) = (kernelLayers.msg (gathered (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (embedded (m ((c : Thread nD τ).loc main_arg0)) (m ((c : Thread nD τ).loc main_arg4))))) (m ((c : Thread nD τ).loc main_arg1))) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9))) := by
  refine (W8_arr m ρ c 5).trans ((Region3.array (V7 m ρ) c).trans ?_)
  show edge (a := 800000) (k := 64) (h := 64) (n := 64) (W7 m ρ c (Proc.devRef .tc main_v45)) (W7 m ρ c (Proc.devRef .tc main_v12)) (W7 m ρ c (Proc.devRef .tc main_arg5)) (W7 m ρ c (Proc.devRef .tc main_v46)) (W7 m ρ c (Proc.devRef .tc main_arg9)) = _
  rw [gath_at7 m ρ c, feat_at7 m ρ c, at7 m ρ c arg5_untouched, bias_at7 m ρ c, at7 m ρ c arg9_untouched]
  rfl

theorem nodes_at8 : W8 m ρ c (Proc.devRef .tc main_v38) = (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (embedded (m ((c : Thread nD τ).loc main_arg0)) (m ((c : Thread nD τ).loc main_arg4))))) := (pass3 m ρ c main_v38 (by decide)).trans (nodes_at7 m ρ c)

/-- Before the readout region: the node features after three rounds and the two bias rows. -/
theorem nodes_at9 : W9 m ρ c (Proc.devRef .tc main_v51) = (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (embedded (m ((c : Thread nD τ).loc main_arg0)) (m ((c : Thread nD τ).loc main_arg4)))))) := by
  show StableHlo.after hostOps4 (W8 m ρ c) (Proc.devRef .tc main_v51) = _
  after_results
  rw [nodes_at8 m ρ c, early8 m ρ c v3_early, dst_at1 m ρ c, msg_at8 m ρ c]
  rfl

theorem bias1_at9 : W9 m ρ c (Proc.devRef .tc main_v52) = shapeCast S1x128 (m ((c : Thread nD τ).loc main_arg11)) Facts₀.shapeCasts_S128_S1x128 := by
  show StableHlo.after hostOps4 (W8 m ρ c) (Proc.devRef .tc main_v52) = _
  after_results
  rw [at8 m ρ c arg11_untouched]
  rfl

theorem bias2_at9 : W9 m ρ c (Proc.devRef .tc main_v53) = shapeCast S1x4 (m ((c : Thread nD τ).loc main_arg13)) Facts₀.shapeCasts_S4_S1x4 := by
  show StableHlo.after hostOps4 (W8 m ρ c) (Proc.devRef .tc main_v53) = _
  after_results
  rw [at8 m ρ c arg13_untouched]
  rfl

/-- After the readout region: every node's four numbers. -/
theorem readout_at10 : W10 m ρ c (Proc.devRef .tc main_v54) = kernelLayers.ro (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (advance kernelLayers (m ((c : Thread nD τ).loc main_arg1)) (kernelLayers.lin (m ((c : Thread nD τ).loc main_arg2)) (m ((c : Thread nD τ).loc main_arg7)) (m ((c : Thread nD τ).loc main_arg8))) (m ((c : Thread nD τ).loc main_arg5)) (m ((c : Thread nD τ).loc main_arg6)) (m ((c : Thread nD τ).loc main_arg9)) (embedded (m ((c : Thread nD τ).loc main_arg0)) (m ((c : Thread nD τ).loc main_arg4)))))) (m ((c : Thread nD τ).loc main_arg10)) (m ((c : Thread nD τ).loc main_arg11)) (m ((c : Thread nD τ).loc main_arg12)) (m ((c : Thread nD τ).loc main_arg13)) := by
  refine (W10_arr m ρ c 5).trans ((Region4.array (V9 m ρ) c).trans ?_)
  show readout (a := 50000) (k := 64) (h := 128) (n := 4) (W9 m ρ c (Proc.devRef .tc main_v51)) (W9 m ρ c (Proc.devRef .tc main_arg10)) (W9 m ρ c (Proc.devRef .tc main_v52)) (W9 m ρ c (Proc.devRef .tc main_arg12)) (W9 m ρ c (Proc.devRef .tc main_v53)) = _
  rw [nodes_at9 m ρ c, at9 m ρ c arg10_untouched, bias1_at9 m ρ c, at9 m ρ c arg12_untouched, bias2_at9 m ρ c]
  rfl

/-- THE KERNEL'S VALUE: at the last boundary the result buffer holds the network over the kernel's layers, of the
    fourteen arguments as launched. -/
theorem value : W11 m ρ c (Proc.devRef .tc main_v57)
    = network kernelLayers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps5 (W10 m ρ c) (Proc.devRef .tc main_v57) = _
  after_results
  rw [at10 m ρ c arg3_untouched, readout_at10 m ρ c]
  rfl

end Cert.KernelIdeal.Whole

end
-- ==== Proof.HostProducts.lean ====
/-
  The reference's three matrix products read at an entry.  The host's `dot_general` of an [A, K] array by a
  [K, B] array sums, at output entry (p, q), over the contraction index of its dimension record, reading the left
  operand at (p, k) and the right one at (k, q): the textbook sum over `t < K`.
-/
import proofs.«166146_j4587025072491_1_alg».proof.Proof.Gen.ReferenceIdeal
import proofs.«166146_j4587025072491_1_alg».proof.Proof.Layers
import Idealize.ShloMosaic.PureOps.Ideal.Laws
import Idealize.ShloMosaic.Lib.ValueIdx

noncomputable section

namespace Cert.ReferenceIdeal.Products

open Cert.ReferenceIdeal Cert.Layers Idealize.ShloMosaic Idealize.ShloMosaic.ValueIdx

/-! ## All 800000 edge rows by a 64 × 64 weight matrix -/

theorem edgeDot_lrow (i : S800000x64.Idx) (q : dot_S800000x64_S64x64_S800000x64_1_0_0_1_n_n.contr.Idx) : (dot_S800000x64_S64x64_S800000x64_1_0_0_1_n_n.lhsIdx i q 0).val = (i 0).val := by
  unfold DotDims.lhsIdx
  rw [dif_neg (show ¬(0 : Fin S800000x64.rank) ∈ dot_S800000x64_S64x64_S800000x64_1_0_0_1_n_n.lhsBatch by decide), dif_pos (show (0 : Fin S800000x64.rank) ∈ dot_S800000x64_S64x64_S800000x64_1_0_0_1_n_n.lhsNonContracting by decide)]
  rfl
theorem edgeDot_lcol (i : S800000x64.Idx) (q : dot_S800000x64_S64x64_S800000x64_1_0_0_1_n_n.contr.Idx) : (dot_S800000x64_S64x64_S800000x64_1_0_0_1_n_n.lhsIdx i q 1).val = (q ⟨0, by decide⟩).val :=
  dot_S800000x64_S64x64_S800000x64_1_0_0_1_n_n.lhsIdx_val_of_single rfl i q
theorem edgeDot_rrow (i : S800000x64.Idx) (q : dot_S800000x64_S64x64_S800000x64_1_0_0_1_n_n.contr.Idx) : (dot_S800000x64_S64x64_S800000x64_1_0_0_1_n_n.rhsIdx i q 0).val = (q ⟨0, by decide⟩).val :=
  dot_S800000x64_S64x64_S800000x64_1_0_0_1_n_n.rhsIdx_val_of_single rfl i q
theorem edgeDot_rcol (i : S800000x64.Idx) (q : dot_S800000x64_S64x64_S800000x64_1_0_0_1_n_n.contr.Idx) : (dot_S800000x64_S64x64_S800000x64_1_0_0_1_n_n.rhsIdx i q 1).val = (i 1).val := by
  unfold DotDims.rhsIdx
  rw [dif_neg (show ¬(1 : Fin S64x64.rank) ∈ dot_S800000x64_S64x64_S800000x64_1_0_0_1_n_n.rhsBatch by decide), dif_pos (show (1 : Fin S64x64.rank) ∈ dot_S800000x64_S64x64_S800000x64_1_0_0_1_n_n.rhsNonContracting by decide)]
  rfl

/-- The product's sum over the contraction index, at entry (p, q), is the sum over `t < 64` of
    row `p` of the left operand against column `q` of the right one. -/
theorem edgeDot_sum (l : Mat 800000 64) (r : Mat 64 64) (p : Fin 800000) (q : Fin 64) :
    (∑ k : dot_S800000x64_S64x64_S800000x64_1_0_0_1_n_n.contr.Idx, l (dot_S800000x64_S64x64_S800000x64_1_0_0_1_n_n.lhsIdx (ix2 p q) k) * r (dot_S800000x64_S64x64_S800000x64_1_0_0_1_n_n.rhsIdx (ix2 p q) k))
      = ∑ t : Fin 64, l (ix2 p t) * r (ix2 t q) := by
  rw [← Equiv.sum_comp (ValueIdx.contrEquiv1 dot_S800000x64_S64x64_S800000x64_1_0_0_1_n_n 64 rfl rfl).symm]
  refine Finset.sum_congr rfl fun t _ => ?_
  have ht := ValueIdx.contrEquiv1_symm_val dot_S800000x64_S64x64_S800000x64_1_0_0_1_n_n 64 rfl rfl t
  have el : dot_S800000x64_S64x64_S800000x64_1_0_0_1_n_n.lhsIdx (ix2 p q) ((ValueIdx.contrEquiv1 dot_S800000x64_S64x64_S800000x64_1_0_0_1_n_n 64 rfl rfl).symm t) = ix2 p t := funext fun a => Fin.ext (by
    match a with
    | ⟨0, _⟩ => exact edgeDot_lrow _ _
    | ⟨1, _⟩ => exact (edgeDot_lcol _ _).trans ht)
  have er : dot_S800000x64_S64x64_S800000x64_1_0_0_1_n_n.rhsIdx (ix2 p q) ((ValueIdx.contrEquiv1 dot_S800000x64_S64x64_S800000x64_1_0_0_1_n_n 64 rfl rfl).symm t) = ix2 t q := funext fun a => Fin.ext (by
    match a with
    | ⟨0, _⟩ => exact (edgeDot_rrow _ _).trans ht
    | ⟨1, _⟩ => exact edgeDot_rcol _ _)
  rw [el, er]

/-! ## All 50000 node rows by the 64 × 128 matrix of the readout's first map -/

theorem hiddenDot_lrow (i : S50000x128.Idx) (q : dot_S50000x64_S64x128_S50000x128_1_0_0_1_n_n.contr.Idx) : (dot_S50000x64_S64x128_S50000x128_1_0_0_1_n_n.lhsIdx i q 0).val = (i 0).val := by
  unfold DotDims.lhsIdx
  rw [dif_neg (show ¬(0 : Fin S50000x64.rank) ∈ dot_S50000x64_S64x128_S50000x128_1_0_0_1_n_n.lhsBatch by decide), dif_pos (show (0 : Fin S50000x64.rank) ∈ dot_S50000x64_S64x128_S50000x128_1_0_0_1_n_n.lhsNonContracting by decide)]
  rfl
theorem hiddenDot_lcol (i : S50000x128.Idx) (q : dot_S50000x64_S64x128_S50000x128_1_0_0_1_n_n.contr.Idx) : (dot_S50000x64_S64x128_S50000x128_1_0_0_1_n_n.lhsIdx i q 1).val = (q ⟨0, by decide⟩).val :=
  dot_S50000x64_S64x128_S50000x128_1_0_0_1_n_n.lhsIdx_val_of_single rfl i q
theorem hiddenDot_rrow (i : S50000x128.Idx) (q : dot_S50000x64_S64x128_S50000x128_1_0_0_1_n_n.contr.Idx) : (dot_S50000x64_S64x128_S50000x128_1_0_0_1_n_n.rhsIdx i q 0).val = (q ⟨0, by decide⟩).val :=
  dot_S50000x64_S64x128_S50000x128_1_0_0_1_n_n.rhsIdx_val_of_single rfl i q
theorem hiddenDot_rcol (i : S50000x128.Idx) (q : dot_S50000x64_S64x128_S50000x128_1_0_0_1_n_n.contr.Idx) : (dot_S50000x64_S64x128_S50000x128_1_0_0_1_n_n.rhsIdx i q 1).val = (i 1).val := by
  unfold DotDims.rhsIdx
  rw [dif_neg (show ¬(1 : Fin S64x128.rank) ∈ dot_S50000x64_S64x128_S50000x128_1_0_0_1_n_n.rhsBatch by decide), dif_pos (show (1 : Fin S64x128.rank) ∈ dot_S50000x64_S64x128_S50000x128_1_0_0_1_n_n.rhsNonContracting by decide)]
  rfl

/-- The product's sum over the contraction index, at entry (p, q), is the sum over `t < 64` of
    row `p` of the left operand against column `q` of the right one. -/
theorem hiddenDot_sum (l : Mat 50000 64) (r : Mat 64 128) (p : Fin 50000) (q : Fin 128) :
    (∑ k : dot_S50000x64_S64x128_S50000x128_1_0_0_1_n_n.contr.Idx, l (dot_S50000x64_S64x128_S50000x128_1_0_0_1_n_n.lhsIdx (ix2 p q) k) * r (dot_S50000x64_S64x128_S50000x128_1_0_0_1_n_n.rhsIdx (ix2 p q) k))
      = ∑ t : Fin 64, l (ix2 p t) * r (ix2 t q) := by
  rw [← Equiv.sum_comp (ValueIdx.contrEquiv1 dot_S50000x64_S64x128_S50000x128_1_0_0_1_n_n 64 rfl rfl).symm]
  refine Finset.sum_congr rfl fun t _ => ?_
  have ht := ValueIdx.contrEquiv1_symm_val dot_S50000x64_S64x128_S50000x128_1_0_0_1_n_n 64 rfl rfl t
  have el : dot_S50000x64_S64x128_S50000x128_1_0_0_1_n_n.lhsIdx (ix2 p q) ((ValueIdx.contrEquiv1 dot_S50000x64_S64x128_S50000x128_1_0_0_1_n_n 64 rfl rfl).symm t) = ix2 p t := funext fun a => Fin.ext (by
    match a with
    | ⟨0, _⟩ => exact hiddenDot_lrow _ _
    | ⟨1, _⟩ => exact (hiddenDot_lcol _ _).trans ht)
  have er : dot_S50000x64_S64x128_S50000x128_1_0_0_1_n_n.rhsIdx (ix2 p q) ((ValueIdx.contrEquiv1 dot_S50000x64_S64x128_S50000x128_1_0_0_1_n_n 64 rfl rfl).symm t) = ix2 t q := funext fun a => Fin.ext (by
    match a with
    | ⟨0, _⟩ => exact (hiddenDot_rrow _ _).trans ht
    | ⟨1, _⟩ => exact hiddenDot_rcol _ _)
  rw [el, er]

/-! ## All 50000 hidden rows by the 128 × 4 matrix of the readout's second map -/

theorem outDot_lrow (i : S50000x4.Idx) (q : dot_S50000x128_S128x4_S50000x4_1_0_0_1_n_n.contr.Idx) : (dot_S50000x128_S128x4_S50000x4_1_0_0_1_n_n.lhsIdx i q 0).val = (i 0).val := by
  unfold DotDims.lhsIdx
  rw [dif_neg (show ¬(0 : Fin S50000x128.rank) ∈ dot_S50000x128_S128x4_S50000x4_1_0_0_1_n_n.lhsBatch by decide), dif_pos (show (0 : Fin S50000x128.rank) ∈ dot_S50000x128_S128x4_S50000x4_1_0_0_1_n_n.lhsNonContracting by decide)]
  rfl
theorem outDot_lcol (i : S50000x4.Idx) (q : dot_S50000x128_S128x4_S50000x4_1_0_0_1_n_n.contr.Idx) : (dot_S50000x128_S128x4_S50000x4_1_0_0_1_n_n.lhsIdx i q 1).val = (q ⟨0, by decide⟩).val :=
  dot_S50000x128_S128x4_S50000x4_1_0_0_1_n_n.lhsIdx_val_of_single rfl i q
theorem outDot_rrow (i : S50000x4.Idx) (q : dot_S50000x128_S128x4_S50000x4_1_0_0_1_n_n.contr.Idx) : (dot_S50000x128_S128x4_S50000x4_1_0_0_1_n_n.rhsIdx i q 0).val = (q ⟨0, by decide⟩).val :=
  dot_S50000x128_S128x4_S50000x4_1_0_0_1_n_n.rhsIdx_val_of_single rfl i q
theorem outDot_rcol (i : S50000x4.Idx) (q : dot_S50000x128_S128x4_S50000x4_1_0_0_1_n_n.contr.Idx) : (dot_S50000x128_S128x4_S50000x4_1_0_0_1_n_n.rhsIdx i q 1).val = (i 1).val := by
  unfold DotDims.rhsIdx
  rw [dif_neg (show ¬(1 : Fin S128x4.rank) ∈ dot_S50000x128_S128x4_S50000x4_1_0_0_1_n_n.rhsBatch by decide), dif_pos (show (1 : Fin S128x4.rank) ∈ dot_S50000x128_S128x4_S50000x4_1_0_0_1_n_n.rhsNonContracting by decide)]
  rfl

/-- The product's sum over the contraction index, at entry (p, q), is the sum over `t < 128` of
    row `p` of the left operand against column `q` of the right one. -/
theorem outDot_sum (l : Mat 50000 128) (r : Mat 128 4) (p : Fin 50000) (q : Fin 4) :
    (∑ k : dot_S50000x128_S128x4_S50000x4_1_0_0_1_n_n.contr.Idx, l (dot_S50000x128_S128x4_S50000x4_1_0_0_1_n_n.lhsIdx (ix2 p q) k) * r (dot_S50000x128_S128x4_S50000x4_1_0_0_1_n_n.rhsIdx (ix2 p q) k))
      = ∑ t : Fin 128, l (ix2 p t) * r (ix2 t q) := by
  rw [← Equiv.sum_comp (ValueIdx.contrEquiv1 dot_S50000x128_S128x4_S50000x4_1_0_0_1_n_n 128 rfl rfl).symm]
  refine Finset.sum_congr rfl fun t _ => ?_
  have ht := ValueIdx.contrEquiv1_symm_val dot_S50000x128_S128x4_S50000x4_1_0_0_1_n_n 128 rfl rfl t
  have el : dot_S50000x128_S128x4_S50000x4_1_0_0_1_n_n.lhsIdx (ix2 p q) ((ValueIdx.contrEquiv1 dot_S50000x128_S128x4_S50000x4_1_0_0_1_n_n 128 rfl rfl).symm t) = ix2 p t := funext fun a => Fin.ext (by
    match a with
    | ⟨0, _⟩ => exact outDot_lrow _ _
    | ⟨1, _⟩ => exact (outDot_lcol _ _).trans ht)
  have er : dot_S50000x128_S128x4_S50000x4_1_0_0_1_n_n.rhsIdx (ix2 p q) ((ValueIdx.contrEquiv1 dot_S50000x128_S128x4_S50000x4_1_0_0_1_n_n 128 rfl rfl).symm t) = ix2 t q := funext fun a => Fin.ext (by
    match a with
    | ⟨0, _⟩ => exact (outDot_rrow _ _).trans ht
    | ⟨1, _⟩ => exact outDot_rcol _ _)
  rw [el, er]

end Cert.ReferenceIdeal.Products

end
-- ==== Proof.RefValue.lean ====
/-
  The reference's result as the same network over the reference's three layers, and those layers identified with the
  kernel's.  The reference computes a dense layer by whole-array operations: a matrix product, a bias vector laid out
  as a row and repeated over all rows, a sum, an entrywise product, a hyperbolic tangent.  Read at an entry these
  are the sums of Proof/Layers.lean, so the reference's layers ARE the kernel's layers.
-/
import proofs.«166146_j4587025072491_1_alg».proof.Proof.Gen.ReferenceIdeal.Run
import proofs.«166146_j4587025072491_1_alg».proof.Proof.HostProducts
import proofs.«166146_j4587025072491_1_alg».proof.Proof.Network
import proofs.«166146_j4587025072491_1_alg».proof.Proof.KernelLayers
import Idealize.ShloMosaic.Lib.ValueLayout
import Idealize.ShloMosaic.Lib.Pipeline.Value

noncomputable section

namespace Cert.ReferenceIdeal.Whole

open Cert.ReferenceIdeal Cert.ReferenceIdeal.Facts₀ Cert.ReferenceIdeal.Products Cert.Layers Cert.Net
open Idealize.ShloMosaic Idealize.ShloMosaic.TcCoe Idealize.SL.Sem Idealize.ShloMosaic.ValueIdx Idealize.ShloMosaic.Pipeline

/-- The reference's three layers, as its host operations compute them on whole arrays. -/
def referenceLayers : Net.Layers where
  lin x w b := addf (F := Ideal) (Host.dotGeneral (F := Ideal) (φ₁ := .f32) (φ₂ := .f32) dot_S800000x64_S64x64_S800000x64_1_0_0_1_n_n none x w)
    (broadcastInDim S800000x64 ![0, 1] bcast_S1x64_S800000x64_0_1 (broadcastInDim S1x64 ![1] bcast_S64_S1x64_1 b))
  msg cg d w1 b w2 := Host.tanh (F := Ideal) (Host.dotGeneral (F := Ideal) (φ₁ := .f32) (φ₂ := .f32) dot_S800000x64_S64x64_S800000x64_1_0_0_1_n_n none
    (mulf (F := Ideal) (addf (F := Ideal) (Host.dotGeneral (F := Ideal) (φ₁ := .f32) (φ₂ := .f32) dot_S800000x64_S64x64_S800000x64_1_0_0_1_n_n none cg w1)
      (broadcastInDim S800000x64 ![0, 1] bcast_S1x64_S800000x64_0_1 (broadcastInDim S1x64 ![1] bcast_S64_S1x64_1 b))) d) w2)
  ro x w1 b1 w2 b2 := addf (F := Ideal) (Host.dotGeneral (F := Ideal) (φ₁ := .f32) (φ₂ := .f32) dot_S50000x128_S128x4_S50000x4_1_0_0_1_n_n none
      (Host.tanh (F := Ideal) (addf (F := Ideal) (Host.dotGeneral (F := Ideal) (φ₁ := .f32) (φ₂ := .f32) dot_S50000x64_S64x128_S50000x128_1_0_0_1_n_n none x w1)
        (broadcastInDim S50000x128 ![0, 1] bcast_S1x128_S50000x128_0_1 (broadcastInDim S1x128 ![1] bcast_S128_S1x128_1 b1)))) w2)
    (broadcastInDim S50000x4 ![0, 1] bcast_S1x4_S50000x4_0_1 (broadcastInDim S1x4 ![1] bcast_S4_S1x4_1 b2))

/-- The host's product of an [800000, 64] array by a [64, 64] array, read at entry (p, q). -/
theorem edge_dot (l : Mat 800000 64) (r : Mat 64 64) (p : Fin 800000) (q : Fin 64) :
    Host.dotGeneral (F := Ideal) (φ₁ := .f32) (φ₂ := .f32) dot_S800000x64_S64x64_S800000x64_1_0_0_1_n_n none l r (ix2 p q) = ∑ t : Fin 64, l (ix2 p t) * r (ix2 t q) := by
  simp only [Host.dotGeneral]
  rw [Ideal.dotGeneral_apply, edgeDot_sum l r p q]

/-- The host's product of an [50000, 64] array by a [64, 128] array, read at entry (p, q). -/
theorem hidden_dot (l : Mat 50000 64) (r : Mat 64 128) (p : Fin 50000) (q : Fin 128) :
    Host.dotGeneral (F := Ideal) (φ₁ := .f32) (φ₂ := .f32) dot_S50000x64_S64x128_S50000x128_1_0_0_1_n_n none l r (ix2 p q) = ∑ t : Fin 64, l (ix2 p t) * r (ix2 t q) := by
  simp only [Host.dotGeneral]
  rw [Ideal.dotGeneral_apply, hiddenDot_sum l r p q]

/-- The host's product of an [50000, 128] array by a [128, 4] array, read at entry (p, q). -/
theorem out_dot (l : Mat 50000 128) (r : Mat 128 4) (p : Fin 50000) (q : Fin 4) :
    Host.dotGeneral (F := Ideal) (φ₁ := .f32) (φ₂ := .f32) dot_S50000x128_S128x4_S50000x4_1_0_0_1_n_n none l r (ix2 p q) = ∑ t : Fin 128, l (ix2 p t) * r (ix2 t q) := by
  simp only [Host.dotGeneral]
  rw [Ideal.dotGeneral_apply, outDot_sum l r p q]

/-- A vector of 64 numbers laid out as one row and repeated over 800000 rows, read at (p, q): entry `q` of the vector. -/
theorem row64 (b : Arr S64 .f32) (p : Fin 800000) (q : Fin 64) :
    broadcastInDim S800000x64 ![0, 1] bcast_S1x64_S800000x64_0_1 (broadcastInDim S1x64 ![1] bcast_S64_S1x64_1 b) (ix2 p q) = b (ix1 q) := by
  refine (broadcastInDim_apply _ bcast_S1x64_S800000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- A vector of 128 numbers laid out as one row and repeated over 50000 rows, read at (p, q): entry `q` of the vector. -/
theorem row128 (b : Arr S128 .f32) (p : Fin 50000) (q : Fin 128) :
    broadcastInDim S50000x128 ![0, 1] bcast_S1x128_S50000x128_0_1 (broadcastInDim S1x128 ![1] bcast_S128_S1x128_1 b) (ix2 p q) = b (ix1 q) := by
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- A vector of 4 numbers laid out as one row and repeated over 50000 rows, read at (p, q): entry `q` of the vector. -/
theorem row4 (b : Arr S4 .f32) (p : Fin 50000) (q : Fin 4) :
    broadcastInDim S50000x4 ![0, 1] bcast_S1x4_S50000x4_0_1 (broadcastInDim S1x4 ![1] bcast_S4_S1x4_1 b) (ix2 p q) = b (ix1 q) := by
  refine (broadcastInDim_apply _ bcast_S1x4_S50000x4_0_1 _ (ix2 p q) (ix2 (0 : Fin 1) q) (fun a => match a with
    | ⟨0, _⟩ => by show 0 = if (1 : Nat) = 1 then 0 else p.val; rw [if_pos rfl]
    | ⟨1, _⟩ => by show q.val = if (4 : Nat) = 1 then 0 else q.val; rw [if_neg (by decide)])).trans ?_
  exact broadcastInDim_apply _ bcast_S4_S1x4_1 b (ix2 (0 : Fin 1) q) (ix1 q) (fun a => match a with
    | ⟨0, _⟩ => by show q.val = if (4 : Nat) = 1 then 0 else q.val; rw [if_neg (by decide)])

/-! ## The reference's layers are the kernel's -/

/-- The edge features: the product plus the repeated bias row, entry by entry. -/
theorem lin_eq (x : Arr KernelIdeal.S800000x64 .f32) (w : Arr KernelIdeal.S64x64 .f32) (b : Arr KernelIdeal.S64 .f32) :
    referenceLayers.lin x w b = Cert.KernelIdeal.Whole.kernelLayers.lin x w b := by
  funext j
  obtain ⟨p, q, rfl⟩ : ∃ (p : Fin 800000) (q : Fin 64), j = ix2 p q := ⟨j 0, j 1, eq_ix2 j⟩
  show Host.dotGeneral (F := Ideal) (φ₁ := .f32) (φ₂ := .f32) dot_S800000x64_S64x64_S800000x64_1_0_0_1_n_n none x w (ix2 p q)
      + broadcastInDim S800000x64 ![0, 1] bcast_S1x64_S800000x64_0_1 (broadcastInDim S1x64 ![1] bcast_S64_S1x64_1 b) (ix2 p q)
    = (∑ t : Fin 64, x (ix2 p t) * w (ix2 t q)) + shapeCast KernelIdeal.S1x64 b KernelIdeal.Facts₀.shapeCasts_S64_S1x64 (ix2 (0 : Fin 1) q)
  rw [edge_dot, row64, shapeCast_a_1a_apply]

/-- The messages: the hyperbolic tangent of the product, entry by entry. -/
theorem msg_eq (cg d : Arr KernelIdeal.S800000x64 .f32) (w1 : Arr KernelIdeal.S64x64 .f32) (b : Arr KernelIdeal.S64 .f32)
    (w2 : Arr KernelIdeal.S64x64 .f32) : referenceLayers.msg cg d w1 b w2 = Cert.KernelIdeal.Whole.kernelLayers.msg cg d w1 b w2 := by
  funext j
  obtain ⟨p, q, rfl⟩ : ∃ (p : Fin 800000) (q : Fin 64), j = ix2 p q := ⟨j 0, j 1, eq_ix2 j⟩
  show Ideal.tanh (Host.dotGeneral (F := Ideal) (φ₁ := .f32) (φ₂ := .f32) dot_S800000x64_S64x64_S800000x64_1_0_0_1_n_n none _ w2 (ix2 p q))
    = edgeAt (a := 800000) (k := 64) (h := 64) (n := 64) cg d w1 (shapeCast KernelIdeal.S1x64 b KernelIdeal.Facts₀.shapeCasts_S64_S1x64) w2 p q
  rw [edge_dot]
  unfold edgeAt affineAt
  refine congrArg Ideal.tanh (Finset.sum_congr rfl fun s _ => ?_)
  show (Host.dotGeneral (F := Ideal) (φ₁ := .f32) (φ₂ := .f32) dot_S800000x64_S64x64_S800000x64_1_0_0_1_n_n none cg w1 (ix2 p s)
      + broadcastInDim S800000x64 ![0, 1] bcast_S1x64_S800000x64_0_1 (broadcastInDim S1x64 ![1] bcast_S64_S1x64_1 b) (ix2 p s))
        * d (ix2 p s) * w2 (ix2 s q) = _
  rw [edge_dot, row64, shapeCast_a_1a_apply]

/-- The readout: two products, two repeated bias rows and a hyperbolic tangent, entry by entry. -/
theorem ro_eq (x : Arr KernelIdeal.S50000x64 .f32) (w1 : Arr KernelIdeal.S64x128 .f32) (b1 : Arr KernelIdeal.S128 .f32)
    (w2 : Arr KernelIdeal.S128x4 .f32) (b2 : Arr KernelIdeal.S4 .f32) :
    referenceLayers.ro x w1 b1 w2 b2 = Cert.KernelIdeal.Whole.kernelLayers.ro x w1 b1 w2 b2 := by
  funext j
  obtain ⟨p, q, rfl⟩ : ∃ (p : Fin 50000) (q : Fin 4), j = ix2 p q := ⟨j 0, j 1, eq_ix2 j⟩
  show Host.dotGeneral (F := Ideal) (φ₁ := .f32) (φ₂ := .f32) dot_S50000x128_S128x4_S50000x4_1_0_0_1_n_n none _ w2 (ix2 p q)
      + broadcastInDim S50000x4 ![0, 1] bcast_S1x4_S50000x4_0_1 (broadcastInDim S1x4 ![1] bcast_S4_S1x4_1 b2) (ix2 p q)
    = readoutAt (a := 50000) (k := 64) (h := 128) (n := 4) x w1 (shapeCast KernelIdeal.S1x128 b1 KernelIdeal.Facts₀.shapeCasts_S128_S1x128) w2
        (shapeCast KernelIdeal.S1x4 b2 KernelIdeal.Facts₀.shapeCasts_S4_S1x4) p q
  rw [out_dot, row4]
  unfold readoutAt affineAt
  rw [shapeCast_a_1a_apply]
  refine congrArg (· + _) (Finset.sum_congr rfl fun s _ => ?_)
  show Ideal.tanh (Host.dotGeneral (F := Ideal) (φ₁ := .f32) (φ₂ := .f32) dot_S50000x64_S64x128_S50000x128_1_0_0_1_n_n none x w1 (ix2 p s)
      + broadcastInDim S50000x128 ![0, 1] bcast_S1x128_S50000x128_0_1 (broadcastInDim S1x128 ![1] bcast_S128_S1x128_1 b1) (ix2 p s)) * w2 (ix2 s q) = _
  rw [hidden_dot, row128, shapeCast_a_1a_apply]

/-- The two programs are built over the same three layers. -/
theorem layers_eq : referenceLayers = Cert.KernelIdeal.Whole.kernelLayers :=
  calc referenceLayers = ⟨referenceLayers.lin, referenceLayers.msg, referenceLayers.ro⟩ := rfl
    _ = ⟨Cert.KernelIdeal.Whole.kernelLayers.lin, Cert.KernelIdeal.Whole.kernelLayers.msg, Cert.KernelIdeal.Whole.kernelLayers.ro⟩ := by
        rw [show referenceLayers.lin = Cert.KernelIdeal.Whole.kernelLayers.lin from funext fun x => funext fun w => funext fun b => lin_eq x w b,
          show referenceLayers.msg = Cert.KernelIdeal.Whole.kernelLayers.msg from
            funext fun cg => funext fun d => funext fun w1 => funext fun b => funext fun w2 => msg_eq cg d w1 b w2,
          show referenceLayers.ro = Cert.KernelIdeal.Whole.kernelLayers.ro from
            funext fun x => funext fun w1 => funext fun b1 => funext fun w2 => funext fun b2 => ro_eq x w1 b1 w2 b2]
    _ = Cert.KernelIdeal.Whole.kernelLayers := rfl

/-! ## The reference's value -/

variable (m : (ℓ : Loc nD τ sig) → Buf (Elt Ideal) ℓ) (c : Dev nD)

set_option maxRecDepth 16384 in
/-- THE REFERENCE'S VALUE: the term its run ends at is the network over the reference's layers, of the fourteen
    arguments as launched — the same gathers, sums by index and index arithmetic, in the same order. -/
theorem value : Cert.ReferenceIdeal.Value.res_main_v80 (F := Ideal) m c
    = network referenceLayers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold Cert.ReferenceIdeal.Value.res_main_v80
  rfl

end Cert.ReferenceIdeal.Whole

end
-- ==== Proof.lean ====
/-
  A message-passing network on a graph of 50000 nodes and 800000 edges, computed twice.

  Both programs embed every node's atomic number, compute the edge features once (an affine map of the edge
  attributes), and then three times: gather the source node's features for every edge, turn them and the edge features
  into a message — the hyperbolic tangent of ((gathered · cfW + cfb) ∘ edge features) · fcW —, add the messages up per
  destination node and add the sums to the node features.  A readout tanh(C · W1 + b1) · W2 + b2 follows, summed per graph.

  The kernel program computes the three dense layers on the TensorCore, block of rows by block of rows, in five
  pipelined regions (one for the edge features, one per round, one for the readout); everything else — the gathers,
  the sums by index, the arithmetic on the indices — it leaves to the same host operations the reference uses, in the
  same order.  The reference computes the dense layers by whole-array matrix products.

  Over the extended reals a change of float format is the identity and a matrix product is a plain sum, so a block of
  a layer is the same rows of the whole-array layer (Proof/Layers.lean, Proof/Bodies.lean, Proof/Region0–4.lean), and
  the reference's layers are entry by entry the kernel's (Proof/RefValue.lean).  Both results are therefore one and
  the same network of the arguments (Proof/Network.lean): the kernel's by tracing the buffer contents through its
  eleven segments (Proof/KernelRun.lean, Proof/Steps.lean, Proof/KernelValue.lean), the reference's by reading its
  run's term.  No law of arithmetic that could fail at an infinity is used — the two sides perform the same operations
  in the same order — so the finiteness of the inputs is never opened.
-/
import proofs.«166146_j4587025072491_1_alg».proof.Defs
import proofs.«166146_j4587025072491_1_alg».proof.Proof.Gen.Kernel
import proofs.«166146_j4587025072491_1_alg».proof.Proof.Gen.Kernel.Skeleton
import proofs.«166146_j4587025072491_1_alg».proof.Proof.Gen.Kernel.Launch
import proofs.«166146_j4587025072491_1_alg».proof.Proof.Gen.Kernel.Points
import proofs.«166146_j4587025072491_1_alg».proof.Proof.Gen.Kernel.Frame
import proofs.«166146_j4587025072491_1_alg».proof.Proof.Gen.KernelIdeal
import proofs.«166146_j4587025072491_1_alg».proof.Proof.Gen.KernelIdeal.Skeleton
import proofs.«166146_j4587025072491_1_alg».proof.Proof.Gen.KernelIdeal.Launch
import proofs.«166146_j4587025072491_1_alg».proof.Proof.Gen.KernelIdeal.Points
import proofs.«166146_j4587025072491_1_alg».proof.Proof.Gen.KernelIdeal.Frame
import proofs.«166146_j4587025072491_1_alg».proof.Proof.Gen.ReferenceIdeal
import proofs.«166146_j4587025072491_1_alg».proof.Proof.Gen.Pre_finite_inputs
import proofs.«166146_j4587025072491_1_alg».proof.Proof.Gen.ReferenceIdeal.Run
import proofs.«166146_j4587025072491_1_alg».proof.Proof.KernelRun
import proofs.«166146_j4587025072491_1_alg».proof.Proof.KernelValue
import proofs.«166146_j4587025072491_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments alone: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the network over the kernel's layers, of those
    arguments: the kernel by `Whole.value`, the reference by its run's term and `layers_eq`. -/
theorem algebraic : Cert.algebraic_KernelIdeal_ReferenceIdeal := by
  intro m ρ m' ρ' _ hagree
  refine ⟨fun c => Cert.Net.network Cert.KernelIdeal.Whole.kernelLayers (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Whole.value m ρ c), (h c).2⟩) (Cert.KernelIdeal.Whole.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Whole.value m' c, Cert.ReferenceIdeal.Whole.layers_eq]
    obtain ⟨e0, e1, e2, e3, e4, e5, e6, e7, e8, e9, e10, e11, e12, e13⟩ := hagree c
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
